-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x2500000 : Shape := ⟨2, ![2, 2500000]⟩
abbrev S100000 : Shape := ⟨1, ![100000]⟩
abbrev S6x32 : Shape := ⟨2, ![6, 32]⟩
abbrev S32 : Shape := ⟨1, ![32]⟩
abbrev S32x32 : Shape := ⟨2, ![32, 32]⟩
abbrev S32x6 : Shape := ⟨2, ![32, 6]⟩
abbrev S6 : Shape := ⟨1, ![6]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S32x6 .f32) (main_arg10 : FVec F S6 .f32) (main_v33 : IVec S_ 1) : IVec S_ 1 :=
  let main_v34 : FVec F S32x6 .f32 := Host.absf main_arg9
  let main_cst_12 : FVec F S_ .f32 := constant S_ .f32 0x7F800000#32
  let main_v35 : FVec F S32x6 .f32 := broadcastInDim S32x6 ![] bcast_S_S32x6 main_cst_12
  let main_v36 : IVec S32x6 1 := cmpf .olt main_v34 main_v35
  let main_c_13 : IVec S_ 1 := constantI S_ 1 1#1
  let main_v37 : IVec S_ 1 := (fun x v => Host.reduce IntOp.andi x v reducesTo_S32x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S32x6 .f32) (main_arg10 : FVec F S6 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x6 .f32) (main_arg1 : IVec S2x2500000 32) (main_arg2 : IVec S100000 32) (main_arg3 : FVec F S6x32 .f32) (main_arg4 : FVec F S32 .f32) (main_arg5 : FVec F S32x32 .f32) (main_arg6 : FVec F S32 .f32) (main_arg7 : FVec F S32x32 .f32) (main_arg8 : FVec F S32 .f32) (main_arg9 : FVec F S32x6 .f32) (main_arg10 : FVec F S6 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x32 .f32 := Host.absf main_arg3
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x6 : Shape := ⟨2, ![100000, 6]⟩
abbrev S2x2500000 : Shape := ⟨2, ![2, 2500000]⟩
abbrev S100000 : Shape := ⟨1, ![100000]⟩
abbrev S6x32 : Shape := ⟨2, ![6, 32]⟩
abbrev S32 : Shape := ⟨1, ![32]⟩
abbrev S32x32 : Shape := ⟨2, ![32, 32]⟩
abbrev S32x6 : Shape := ⟨2, ![32, 6]⟩
abbrev S6 : Shape := ⟨1, ![6]⟩
abbrev S1x2500000 : Shape := ⟨2, ![1, 2500000]⟩
abbrev S2500000 : Shape := ⟨1, ![2500000]⟩
abbrev S2600000 : Shape := ⟨1, ![2600000]⟩
abbrev S_ : Shape := ⟨0, ![]⟩
abbrev S2600000x1 : Shape := ⟨2, ![2600000, 1]⟩
abbrev S1x32 : Shape := ⟨2, ![1, 32]⟩
abbrev S100000x32 : Shape := ⟨2, ![100000, 32]⟩
abbrev S10000x6 : Shape := ⟨2, ![10000, 6]⟩
abbrev S10000x32 : Shape := ⟨2, ![10000, 32]⟩
abbrev S2600000x32 : Shape := ⟨2, ![2600000, 32]⟩
abbrev S4096x32 : Shape := ⟨2, ![4096, 32]⟩
abbrev S100000x1 : Shape := ⟨2, ![100000, 1]⟩
abbrev S4096x1 : Shape := ⟨2, ![4096, 1]⟩
abbrev S1x6 : Shape := ⟨2, ![1, 6]⟩
abbrev S4096x6 : Shape := ⟨2, ![4096, 6]⟩

abbrev nBuf : Space → Nat
  | .hbm => 128
  | .vmem => 37
  | .smem => 0
  | _ => 0

abbrev bufTy : (tb : Table) → Fin (tcTables nBuf tb) → BufTy
  | .hbm, ⟨0, _⟩ => ⟨S100000x6, .f32⟩
  | .hbm, ⟨1, _⟩ => ⟨S2x2500000, .i32⟩
  | .hbm, ⟨2, _⟩ => ⟨S100000, .i32⟩
  | .hbm, ⟨3, _⟩ => ⟨S6x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x6, .f32⟩
  | .hbm, ⟨10, _⟩ => ⟨S6, .f32⟩
  | .hbm, ⟨11, _⟩ => ⟨S100000, .i32⟩
  | .hbm, ⟨12, _⟩ => ⟨S1x2500000, .i32⟩
  | .hbm, ⟨13, _⟩ => ⟨S2500000, .i32⟩
  | .hbm, ⟨14, _⟩ => ⟨S2600000, .i32⟩
  | .hbm, ⟨15, _⟩ => ⟨S1x2500000, .i32⟩
  | .hbm, ⟨16, _⟩ => ⟨S2500000, .i32⟩
  | .hbm, ⟨17, _⟩ => ⟨S2600000, .i32⟩
  | .hbm, ⟨18, _⟩ => ⟨S_, .f32⟩
  | .hbm, ⟨19, _⟩ => ⟨S2600000, .f32⟩
  | .hbm, ⟨20, _⟩ => ⟨S_, .f32⟩
  | .hbm, ⟨21, _⟩ => ⟨S100000, .f32⟩
  | .hbm, ⟨22, _⟩ => ⟨S2600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S2600000, .i32⟩
  | .hbm, ⟨30, _⟩ => ⟨S2600000, .i1⟩
  | .hbm, ⟨31, _⟩ => ⟨S_, .i32⟩
  | .hbm, ⟨32, _⟩ => ⟨S2600000, .i32⟩
  | .hbm, ⟨33, _⟩ => ⟨S2600000, .i32⟩
  | .hbm, ⟨34, _⟩ => ⟨S2600000, .i32⟩
  | .hbm, ⟨35, _⟩ => ⟨S2600000x1, .i32⟩
  | .hbm, ⟨36, _⟩ => ⟨S2600000, .f32⟩
  | .hbm, ⟨37, _⟩ => ⟨S_, .i32⟩
  | .hbm, ⟨38, _⟩ => ⟨S2600000, .i32⟩
  | .hbm, ⟨39, _⟩ => ⟨S2600000, .i1⟩
  | .hbm, ⟨40, _⟩ => ⟨S_, .i32⟩
  | .hbm, ⟨41, _⟩ => ⟨S2600000, .i32⟩
  | .hbm, ⟨42, _⟩ => ⟨S2600000, .i32⟩
  | .hbm, ⟨43, _⟩ => ⟨S2600000, .i32⟩
  | .hbm, ⟨44, _⟩ => ⟨S2600000x1, .i32⟩
  | .hbm, ⟨45, _⟩ => ⟨S2600000, .f32⟩
  | .hbm, ⟨46, _⟩ => ⟨S2600000, .f32⟩
  | .hbm, ⟨47, _⟩ => ⟨S2600000x1, .f32⟩
  | .hbm, ⟨48, _⟩ => ⟨S_, .f32⟩
  | .hbm, ⟨49, _⟩ => ⟨S32, .f32⟩
  | .hbm, ⟨50, _⟩ => ⟨S1x32, .f32⟩
  | .hbm, ⟨51, _⟩ => ⟨S100000x32, .f32⟩
  | .hbm, ⟨52, _⟩ => ⟨S_, .i32⟩
  | .hbm, ⟨53, _⟩ => ⟨S2600000, .i32⟩
  | .hbm, ⟨54, _⟩ => ⟨S2600000, .i1⟩
  | .hbm, ⟨55, _⟩ => ⟨S_, .i32⟩
  | .hbm, ⟨56, _⟩ => ⟨S2600000, .i32⟩
  | .hbm, ⟨57, _⟩ => ⟨S2600000, .i32⟩
  | .hbm, ⟨58, _⟩ => ⟨S2600000, .i32⟩
  | .hbm, ⟨59, _⟩ => ⟨S2600000x1, .i32⟩
  | .hbm, ⟨60, _⟩ => ⟨S2600000x32, .f32⟩
  | .hbm, ⟨61, _⟩ => ⟨S2600000x32, .f32⟩
  | .hbm, ⟨62, _⟩ => ⟨S2600000x32, .f32⟩
  | .hbm, ⟨63, _⟩ => ⟨S_, .f32⟩
  | .hbm, ⟨64, _⟩ => ⟨S100000x32, .f32⟩
  | .hbm, ⟨65, _⟩ => ⟨S2600000x1, .i32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S_, .f32⟩
  | .hbm, ⟨70, _⟩ => ⟨S32, .f32⟩
  | .hbm, ⟨71, _⟩ => ⟨S1x32, .f32⟩
  | .hbm, ⟨72, _⟩ => ⟨S100000x32, .f32⟩
  | .hbm, ⟨73, _⟩ => ⟨S_, .i32⟩
  | .hbm, ⟨74, _⟩ => ⟨S2600000, .i32⟩
  | .hbm, ⟨75, _⟩ => ⟨S2600000, .i1⟩
  | .hbm, ⟨76, _⟩ => ⟨S_, .i32⟩
  | .hbm, ⟨77, _⟩ => ⟨S2600000, .i32⟩
  | .hbm, ⟨78, _⟩ => ⟨S2600000, .i32⟩
  | .hbm, ⟨79, _⟩ => ⟨S2600000, .i32⟩
  | .hbm, ⟨80, _⟩ => ⟨S2600000x1, .i32⟩
  | .hbm, ⟨81, _⟩ => ⟨S2600000x32, .f32⟩
  | .hbm, ⟨82, _⟩ => ⟨S2600000x32, .f32⟩
  | .hbm, ⟨83, _⟩ => ⟨S2600000x32, .f32⟩
  | .hbm, ⟨84, _⟩ => ⟨S_, .f32⟩
  | .hbm, ⟨85, _⟩ => ⟨S100000x32, .f32⟩
  | .hbm, ⟨86, _⟩ => ⟨S2600000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S_, .f32⟩
  | .hbm, ⟨91, _⟩ => ⟨S32, .f32⟩
  | .hbm, ⟨92, _⟩ => ⟨S1x32, .f32⟩
  | .hbm, ⟨93, _⟩ => ⟨S100000x32, .f32⟩
  | .hbm, ⟨94, _⟩ => ⟨S_, .i32⟩
  | .hbm, ⟨95, _⟩ => ⟨S2600000, .i32⟩
  | .hbm, ⟨96, _⟩ => ⟨S2600000, .i1⟩
  | .hbm, ⟨97, _⟩ => ⟨S_, .i32⟩
  | .hbm, ⟨98, _⟩ => ⟨S2600000, .i32⟩
  | .hbm, ⟨99, _⟩ => ⟨S2600000, .i32⟩
  | .hbm, ⟨100, _⟩ => ⟨S2600000, .i32⟩
  | .hbm, ⟨101, _⟩ => ⟨S2600000x1, .i32⟩
  | .hbm, ⟨102, _⟩ => ⟨S2600000x32, .f32⟩
  | .hbm, ⟨103, _⟩ => ⟨S2600000x32, .f32⟩
  | .hbm, ⟨104, _⟩ => ⟨S2600000x32, .f32⟩
  | .hbm, ⟨105, _⟩ => ⟨S_, .f32⟩
  | .hbm, ⟨106, _⟩ => ⟨S100000x32, .f32⟩
  | .hbm, ⟨107, _⟩ => ⟨S2600000x1, .i32⟩
  | .hbm, ⟨108, _⟩ => ⟨S100000x32, .f32⟩
  | .hbm, ⟨109, _⟩ => ⟨S1x32, .f32⟩
  | .hbm, ⟨110, _⟩ => ⟨S100000x32, .f32⟩
  | .hbm, ⟨111, _⟩ => ⟨S_, .f32⟩
  | .hbm, ⟨112, _⟩ => ⟨S4096x32, .f32⟩
  | .hbm, ⟨113, _⟩ => ⟨S100000x1, .i32⟩
  | .hbm, ⟨114, _⟩ => ⟨S4096x32, .f32⟩
  | .hbm, ⟨115, _⟩ => ⟨S_, .f32⟩
  | .hbm, ⟨116, _⟩ => ⟨S100000x1, .f32⟩
  | .hbm, ⟨117, _⟩ => ⟨S_, .f32⟩
  | .hbm, ⟨118, _⟩ => ⟨S4096x1, .f32⟩
  | .hbm, ⟨119, _⟩ => ⟨S100000x1, .i32⟩
  | .hbm, ⟨120, _⟩ => ⟨S4096x1, .f32⟩
  | .hbm, ⟨121, _⟩ => ⟨S_, .f32⟩
  | .hbm, ⟨122, _⟩ => ⟨S4096x1, .f32⟩
  | .hbm, ⟨123, _⟩ => ⟨S4096x1, .f32⟩
  | .hbm, ⟨124, _⟩ => ⟨S4096x32, .f32⟩
  | .hbm, ⟨125, _⟩ => ⟨S4096x32, .f32⟩
  | .hbm, ⟨126, _⟩ => ⟨S1x6, .f32⟩
  | .hbm, ⟨127, _⟩ => ⟨S4096x6, .f32⟩
  | .local _ .vmem, ⟨0, _⟩ => ⟨S10000x6, .f32⟩
  | .local _ .vmem, ⟨1, _⟩ => ⟨S10000x6, .f32⟩
  | .local _ .vmem, ⟨2, _⟩ => ⟨S6x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S1x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x32, .f32⟩
  | .local _ .vmem, ⟨14, _⟩ => ⟨S1x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S32x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S1x32, .f32⟩
  | .local _ .vmem, ⟨31, _⟩ => ⟨S10000x32, .f32⟩
  | .local _ .vmem, ⟨32, _⟩ => ⟨S10000x32, .f32⟩
  | .local _ .vmem, ⟨33, _⟩ => ⟨S4096x32, .f32⟩
  | .local _ .vmem, ⟨34, _⟩ => ⟨S32x6, .f32⟩
  | .local _ .vmem, ⟨35, _⟩ => ⟨S1x6, .f32⟩
  | .local _ .vmem, ⟨36, _⟩ => ⟨S4096x6, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem1_0 : DmaSem sig := 34
abbrev cc6_sem2_0 : DmaSem sig := 35
abbrev cc6_sem3_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S4096x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S32x6 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x6 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S4096x6 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  slices_S2x2500000_S1x2500000_0_0 : S2x2500000.Slices ![0, 0] S1x2500000
  shapeCasts_S1x2500000_S2500000 : S1x2500000.ShapeCasts S2500000
  concatenates_S2500000_S100000_S2600000_d0 : Shape.Concatenates [S2500000, S100000] S2600000 0
  slices_S2x2500000_S1x2500000_1_0 : S2x2500000.Slices ![1, 0] S1x2500000
  bcast_S_S2600000 : S_.BroadcastsInDim S2600000 (![] : Fin 0 → Fin S2600000.rank)
  bcast_S_S100000 : S_.BroadcastsInDim S100000 (![] : Fin 0 → Fin S100000.rank)
  bcast_S2600000_S2600000x1_0 : S2600000.BroadcastsInDim S2600000x1 (![0] : Fin 1 → Fin S2600000x1.rank)
  bcast_S_S32 : S_.BroadcastsInDim S32 (![] : Fin 0 → Fin S32.rank)
  shapeCasts_S32_S1x32 : S32.ShapeCasts S1x32
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S2600000x1_S2600000x32_0_1 : S2600000x1.BroadcastsInDim S2600000x32 (![0, 1] : Fin 2 → Fin S2600000x32.rank)
  bcast_S_S100000x32 : S_.BroadcastsInDim S100000x32 (![] : Fin 0 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  bcast_S_S4096x32 : S_.BroadcastsInDim S4096x32 (![] : Fin 0 → Fin S4096x32.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  shapeCasts_S6_S1x6 : S6.ShapeCasts S1x6
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S4096x6 : S1x6.Broadcasts S4096x6
  inb_S4096x6_S4096x6_0_0 : ∀ a, (![0, 0] : Fin 2 → Nat) a + S4096x6.size a ≤ S4096x6.size a
  h_S4096x6 : 0 < S4096x6.numel
  scatter_S100000_S2600000x1_S2600000_n_0_0_1_wf : ScatterDims.WF S100000 S2600000x1 S2600000 [] [0] [0] 1
  gather_S100000_S2600000x1_S2600000_n_0_n_n_0_1_1_wf : GatherDims.WF S100000 S2600000x1 S2600000 [] [0] [] [0] [] 1 ![1]
  dot_S10000x6_S6x32_S10000x32_1_0_0_1_n_n_wf : DotDims.WF S10000x6 S6x32 S10000x32 [1] [0] [0] [1] [] []
  gather_S100000x32_S2600000x1_S2600000x32_1_0_n_n_0_1_132_wf : GatherDims.WF S100000x32 S2600000x1 S2600000x32 [1] [0] [] [0] [] 1 ![1, 32]
  scatter_S100000x32_S2600000x1_S2600000x32_1_0_0_1_wf : ScatterDims.WF S100000x32 S2600000x1 S2600000x32 [1] [0] [0] 1
  dot_S10000x32_S32x32_S10000x32_1_0_0_1_n_n_wf : DotDims.WF S10000x32 S32x32 S10000x32 [1] [0] [0] [1] [] []
  scatter_S4096x32_S100000x1_S100000x32_1_0_0_1_wf : ScatterDims.WF S4096x32 S100000x1 S100000x32 [1] [0] [0] 1
  scatter_S4096x1_S100000x1_S100000x1_1_0_0_1_wf : ScatterDims.WF S4096x1 S100000x1 S100000x1 [1] [0] [0] 1
  dot_S4096x32_S32x6_S4096x6_1_0_0_1_n_n_wf : DotDims.WF S4096x32 S32x6 S4096x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S4096x32.size a ≤ S4096x32.size a
  hwx6_0 : ∀ i : grid6.Coords, EltTy.bits .f32 = 32 ∨ (Rect.block (s := S4096x32) S4096x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x6.size a ≤ S32x6.size a
  hwx6_1 : ∀ i : grid6.Coords, EltTy.bits .f32 = 32 ∨ (Rect.block (s := S32x6) S32x6.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x6.size a ≤ S1x6.size a
  hwx6_2 : ∀ i : grid6.Coords, EltTy.bits .f32 = 32 ∨ (Rect.block (s := S1x6) S1x6.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S4096x6.size a ≤ S4096x6.size a
  hwx6_3 : ∀ i : grid6.Coords, EltTy.bits .f32 = 32 ∨ (Rect.block (s := S4096x6) S4096x6.size (cc6_transform_3 i) (hinb6_3 i)).WholeWords (EltTy.packing .f32)

variable [Facts₀]

def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def gather_S100000_S2600000x1_S2600000_n_0_n_n_0_1_1 : GatherDims S100000 S2600000x1 S2600000 where
  offsetDims := []
  collapsedSliceDims := [0]
  operandBatchingDims := []
  startIndicesBatchingDims := []
  startIndexMap := [0]
  indexVectorDim := 1
  sliceSizes := ![1]
  wf := gather_S100000_S2600000x1_S2600000_n_0_n_n_0_1_1_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def gather_S100000x32_S2600000x1_S2600000x32_1_0_n_n_0_1_132 : GatherDims S100000x32 S2600000x1 S2600000x32 where
  offsetDims := [1]
  collapsedSliceDims := [0]
  operandBatchingDims := []
  startIndicesBatchingDims := []
  startIndexMap := [0]
  indexVectorDim := 1
  sliceSizes := ![1, 32]
  wf := gather_S100000x32_S2600000x1_S2600000x32_1_0_n_n_0_1_132_wf
def scatter_S100000x32_S2600000x1_S2600000x32_1_0_0_1 : ScatterDims S100000x32 S2600000x1 S2600000x32 where
  updateWindowDims := [1]
  insertedWindowDims := [0]
  scatterDimsToOperandDims := [0]
  indexVectorDim := 1
  wf := scatter_S100000x32_S2600000x1_S2600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S4096x32_S100000x1_S100000x32_1_0_0_1 : ScatterDims S4096x32 S100000x1 S100000x32 where
  updateWindowDims := [1]
  insertedWindowDims := [0]
  scatterDimsToOperandDims := [0]
  indexVectorDim := 1
  wf := scatter_S4096x32_S100000x1_S100000x32_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf
def dot_S4096x32_S32x6_S4096x6_1_0_0_1_n_n : DotDims S4096x32 S32x6 S4096x6 where
  lhsContracting := [1]
  rhsContracting := [0]
  lhsNonContracting := [0]
  rhsNonContracting := [1]
  lhsBatch := []
  rhsBatch := []
  wf := dot_S4096x32_S32x6_S4096x6_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v78) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S4096x32.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S32x6.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x6.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S4096x6.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x6 : Shape := ⟨2, ![100000, 6]⟩
abbrev S2x2500000 : Shape := ⟨2, ![2, 2500000]⟩
abbrev S100000 : Shape := ⟨1, ![100000]⟩
abbrev S6x32 : Shape := ⟨2, ![6, 32]⟩
abbrev S32 : Shape := ⟨1, ![32]⟩
abbrev S32x32 : Shape := ⟨2, ![32, 32]⟩
abbrev S32x6 : Shape := ⟨2, ![32, 6]⟩
abbrev S6 : Shape := ⟨1, ![6]⟩
abbrev S1x2500000 : Shape := ⟨2, ![1, 2500000]⟩
abbrev S2500000 : Shape := ⟨1, ![2500000]⟩
abbrev S2600000 : Shape := ⟨1, ![2600000]⟩
abbrev S_ : Shape := ⟨0, ![]⟩
abbrev S2600000x1 : Shape := ⟨2, ![2600000, 1]⟩
abbrev S100000x32 : Shape := ⟨2, ![100000, 32]⟩
abbrev S2600000x32 : Shape := ⟨2, ![2600000, 32]⟩
abbrev S1x32 : Shape := ⟨2, ![1, 32]⟩
abbrev S4096x32 : Shape := ⟨2, ![4096, 32]⟩
abbrev S100000x1 : Shape := ⟨2, ![100000, 1]⟩
abbrev S4096x1 : Shape := ⟨2, ![4096, 1]⟩
abbrev S4096x6 : Shape := ⟨2, ![4096, 6]⟩
abbrev S1x6 : Shape := ⟨2, ![1, 6]⟩

abbrev nBuf : Space → Nat
  | .hbm => 127
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x2500000, .i32⟩
  | .hbm, ⟨2, _⟩ => ⟨S100000, .i32⟩
  | .hbm, ⟨3, _⟩ => ⟨S6x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x6, .f32⟩
  | .hbm, ⟨10, _⟩ => ⟨S6, .f32⟩
  | .hbm, ⟨11, _⟩ => ⟨S100000, .i32⟩
  | .hbm, ⟨12, _⟩ => ⟨S1x2500000, .i32⟩
  | .hbm, ⟨13, _⟩ => ⟨S2500000, .i32⟩
  | .hbm, ⟨14, _⟩ => ⟨S2600000, .i32⟩
  | .hbm, ⟨15, _⟩ => ⟨S1x2500000, .i32⟩
  | .hbm, ⟨16, _⟩ => ⟨S2500000, .i32⟩
  | .hbm, ⟨17, _⟩ => ⟨S2600000, .i32⟩
  | .hbm, ⟨18, _⟩ => ⟨S_, .f32⟩
  | .hbm, ⟨19, _⟩ => ⟨S2600000, .f32⟩
  | .hbm, ⟨20, _⟩ => ⟨S_, .f32⟩
  | .hbm, ⟨21, _⟩ => ⟨S100000, .f32⟩
  | .hbm, ⟨22, _⟩ => ⟨S2600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S2600000, .i32⟩
  | .hbm, ⟨30, _⟩ => ⟨S2600000, .i1⟩
  | .hbm, ⟨31, _⟩ => ⟨S_, .i32⟩
  | .hbm, ⟨32, _⟩ => ⟨S2600000, .i32⟩
  | .hbm, ⟨33, _⟩ => ⟨S2600000, .i32⟩
  | .hbm, ⟨34, _⟩ => ⟨S2600000, .i32⟩
  | .hbm, ⟨35, _⟩ => ⟨S2600000x1, .i32⟩
  | .hbm, ⟨36, _⟩ => ⟨S2600000, .f32⟩
  | .hbm, ⟨37, _⟩ => ⟨S_, .i32⟩
  | .hbm, ⟨38, _⟩ => ⟨S2600000, .i32⟩
  | .hbm, ⟨39, _⟩ => ⟨S2600000, .i1⟩
  | .hbm, ⟨40, _⟩ => ⟨S_, .i32⟩
  | .hbm, ⟨41, _⟩ => ⟨S2600000, .i32⟩
  | .hbm, ⟨42, _⟩ => ⟨S2600000, .i32⟩
  | .hbm, ⟨43, _⟩ => ⟨S2600000, .i32⟩
  | .hbm, ⟨44, _⟩ => ⟨S2600000x1, .i32⟩
  | .hbm, ⟨45, _⟩ => ⟨S2600000, .f32⟩
  | .hbm, ⟨46, _⟩ => ⟨S2600000, .f32⟩
  | .hbm, ⟨47, _⟩ => ⟨S2600000x1, .f32⟩
  | .hbm, ⟨48, _⟩ => ⟨S100000x32, .f32⟩
  | .hbm, ⟨49, _⟩ => ⟨S_, .i32⟩
  | .hbm, ⟨50, _⟩ => ⟨S2600000, .i32⟩
  | .hbm, ⟨51, _⟩ => ⟨S2600000, .i1⟩
  | .hbm, ⟨52, _⟩ => ⟨S_, .i32⟩
  | .hbm, ⟨53, _⟩ => ⟨S2600000, .i32⟩
  | .hbm, ⟨54, _⟩ => ⟨S2600000, .i32⟩
  | .hbm, ⟨55, _⟩ => ⟨S2600000, .i32⟩
  | .hbm, ⟨56, _⟩ => ⟨S2600000x1, .i32⟩
  | .hbm, ⟨57, _⟩ => ⟨S2600000x32, .f32⟩
  | .hbm, ⟨58, _⟩ => ⟨S2600000x32, .f32⟩
  | .hbm, ⟨59, _⟩ => ⟨S2600000x32, .f32⟩
  | .hbm, ⟨60, _⟩ => ⟨S_, .f32⟩
  | .hbm, ⟨61, _⟩ => ⟨S100000x32, .f32⟩
  | .hbm, ⟨62, _⟩ => ⟨S2600000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S100000x32, .f32⟩
  | .hbm, ⟨69, _⟩ => ⟨S_, .i32⟩
  | .hbm, ⟨70, _⟩ => ⟨S2600000, .i32⟩
  | .hbm, ⟨71, _⟩ => ⟨S2600000, .i1⟩
  | .hbm, ⟨72, _⟩ => ⟨S_, .i32⟩
  | .hbm, ⟨73, _⟩ => ⟨S2600000, .i32⟩
  | .hbm, ⟨74, _⟩ => ⟨S2600000, .i32⟩
  | .hbm, ⟨75, _⟩ => ⟨S2600000, .i32⟩
  | .hbm, ⟨76, _⟩ => ⟨S2600000x1, .i32⟩
  | .hbm, ⟨77, _⟩ => ⟨S2600000x32, .f32⟩
  | .hbm, ⟨78, _⟩ => ⟨S2600000x32, .f32⟩
  | .hbm, ⟨79, _⟩ => ⟨S2600000x32, .f32⟩
  | .hbm, ⟨80, _⟩ => ⟨S_, .f32⟩
  | .hbm, ⟨81, _⟩ => ⟨S100000x32, .f32⟩
  | .hbm, ⟨82, _⟩ => ⟨S2600000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .hbm, ⟨87, _⟩ => ⟨S100000x32, .f32⟩
  | .hbm, ⟨88, _⟩ => ⟨S100000x32, .f32⟩
  | .hbm, ⟨89, _⟩ => ⟨S_, .i32⟩
  | .hbm, ⟨90, _⟩ => ⟨S2600000, .i32⟩
  | .hbm, ⟨91, _⟩ => ⟨S2600000, .i1⟩
  | .hbm, ⟨92, _⟩ => ⟨S_, .i32⟩
  | .hbm, ⟨93, _⟩ => ⟨S2600000, .i32⟩
  | .hbm, ⟨94, _⟩ => ⟨S2600000, .i32⟩
  | .hbm, ⟨95, _⟩ => ⟨S2600000, .i32⟩
  | .hbm, ⟨96, _⟩ => ⟨S2600000x1, .i32⟩
  | .hbm, ⟨97, _⟩ => ⟨S2600000x32, .f32⟩
  | .hbm, ⟨98, _⟩ => ⟨S2600000x32, .f32⟩
  | .hbm, ⟨99, _⟩ => ⟨S2600000x32, .f32⟩
  | .hbm, ⟨100, _⟩ => ⟨S_, .f32⟩
  | .hbm, ⟨101, _⟩ => ⟨S100000x32, .f32⟩
  | .hbm, ⟨102, _⟩ => ⟨S2600000x1, .i32⟩
  | .hbm, ⟨103, _⟩ => ⟨S100000x32, .f32⟩
  | .hbm, ⟨104, _⟩ => ⟨S1x32, .f32⟩
  | .hbm, ⟨105, _⟩ => ⟨S100000x32, .f32⟩
  | .hbm, ⟨106, _⟩ => ⟨S100000x32, .f32⟩
  | .hbm, ⟨107, _⟩ => ⟨S100000x32, .f32⟩
  | .hbm, ⟨108, _⟩ => ⟨S_, .f32⟩
  | .hbm, ⟨109, _⟩ => ⟨S4096x32, .f32⟩
  | .hbm, ⟨110, _⟩ => ⟨S100000x1, .i32⟩
  | .hbm, ⟨111, _⟩ => ⟨S4096x32, .f32⟩
  | .hbm, ⟨112, _⟩ => ⟨S_, .f32⟩
  | .hbm, ⟨113, _⟩ => ⟨S100000x1, .f32⟩
  | .hbm, ⟨114, _⟩ => ⟨S_, .f32⟩
  | .hbm, ⟨115, _⟩ => ⟨S4096x1, .f32⟩
  | .hbm, ⟨116, _⟩ => ⟨S100000x1, .i32⟩
  | .hbm, ⟨117, _⟩ => ⟨S4096x1, .f32⟩
  | .hbm, ⟨118, _⟩ => ⟨S_, .f32⟩
  | .hbm, ⟨119, _⟩ => ⟨S4096x1, .f32⟩
  | .hbm, ⟨120, _⟩ => ⟨S4096x1, .f32⟩
  | .hbm, ⟨121, _⟩ => ⟨S4096x32, .f32⟩
  | .hbm, ⟨122, _⟩ => ⟨S4096x32, .f32⟩
  | .hbm, ⟨123, _⟩ => ⟨S4096x6, .f32⟩
  | .hbm, ⟨124, _⟩ => ⟨S1x6, .f32⟩
  | .hbm, ⟨125, _⟩ => ⟨S4096x6, .f32⟩
  | .hbm, ⟨126, _⟩ => ⟨S4096x6, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  concatenates_S2500000_S100000_S2600000_d0 : Shape.Concatenates [S2500000, S100000] S2600000 0
  slices_S2x2500000_S1x2500000_1_0 : S2x2500000.Slices ![1, 0] S1x2500000
  bcast_S_S2600000 : S_.BroadcastsInDim S2600000 (![] : Fin 0 → Fin S2600000.rank)
  bcast_S_S100000 : S_.BroadcastsInDim S100000 (![] : Fin 0 → Fin S100000.rank)
  bcast_S2600000_S2600000x1_0 : S2600000.BroadcastsInDim S2600000x1 (![0] : Fin 1 → Fin S2600000x1.rank)
  bcast_S2600000x1_S2600000x32_0_1 : S2600000x1.BroadcastsInDim S2600000x32 (![0, 1] : Fin 2 → Fin S2600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S4096x32 : S_.BroadcastsInDim S4096x32 (![] : Fin 0 → Fin S4096x32.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  bcast_S6_S1x6_1 : S6.BroadcastsInDim S1x6 (![1] : Fin 1 → Fin S1x6.rank)
  bcast_S1x6_S4096x6_0_1 : S1x6.BroadcastsInDim S4096x6 (![0, 1] : Fin 2 → Fin S4096x6.rank)
  scatter_S100000_S2600000x1_S2600000_n_0_0_1_wf : ScatterDims.WF S100000 S2600000x1 S2600000 [] [0] [0] 1
  gather_S100000_S2600000x1_S2600000_n_0_n_n_0_1_1_wf : GatherDims.WF S100000 S2600000x1 S2600000 [] [0] [] [0] [] 1 ![1]
  dot_S100000x6_S6x32_S100000x32_1_0_0_1_n_n_wf : DotDims.WF S100000x6 S6x32 S100000x32 [1] [0] [0] [1] [] []
  gather_S100000x32_S2600000x1_S2600000x32_1_0_n_n_0_1_132_wf : GatherDims.WF S100000x32 S2600000x1 S2600000x32 [1] [0] [] [0] [] 1 ![1, 32]
  scatter_S100000x32_S2600000x1_S2600000x32_1_0_0_1_wf : ScatterDims.WF S100000x32 S2600000x1 S2600000x32 [1] [0] [0] 1
  dot_S100000x32_S32x32_S100000x32_1_0_0_1_n_n_wf : DotDims.WF S100000x32 S32x32 S100000x32 [1] [0] [0] [1] [] []
  scatter_S4096x32_S100000x1_S100000x32_1_0_0_1_wf : ScatterDims.WF S4096x32 S100000x1 S100000x32 [1] [0] [0] 1
  scatter_S4096x1_S100000x1_S100000x1_1_0_0_1_wf : ScatterDims.WF S4096x1 S100000x1 S100000x1 [1] [0] [0] 1
  dot_S4096x32_S32x6_S4096x6_1_0_0_1_n_n_wf : DotDims.WF S4096x32 S32x6 S4096x6 [1] [0] [0] [1] [] []

variable [Facts₀]

def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def gather_S100000_S2600000x1_S2600000_n_0_n_n_0_1_1 : GatherDims S100000 S2600000x1 S2600000 where
  offsetDims := []
  collapsedSliceDims := [0]
  operandBatchingDims := []
  startIndicesBatchingDims := []
  startIndexMap := [0]
  indexVectorDim := 1
  sliceSizes := ![1]
  wf := gather_S100000_S2600000x1_S2600000_n_0_n_n_0_1_1_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def gather_S100000x32_S2600000x1_S2600000x32_1_0_n_n_0_1_132 : GatherDims S100000x32 S2600000x1 S2600000x32 where
  offsetDims := [1]
  collapsedSliceDims := [0]
  operandBatchingDims := []
  startIndicesBatchingDims := []
  startIndexMap := [0]
  indexVectorDim := 1
  sliceSizes := ![1, 32]
  wf := gather_S100000x32_S2600000x1_S2600000x32_1_0_n_n_0_1_132_wf
def scatter_S100000x32_S2600000x1_S2600000x32_1_0_0_1 : ScatterDims S100000x32 S2600000x1 S2600000x32 where
  updateWindowDims := [1]
  insertedWindowDims := [0]
  scatterDimsToOperandDims := [0]
  indexVectorDim := 1
  wf := scatter_S100000x32_S2600000x1_S2600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S4096x32_S100000x1_S100000x32_1_0_0_1 : ScatterDims S4096x32 S100000x1 S100000x32 where
  updateWindowDims := [1]
  insertedWindowDims := [0]
  scatterDimsToOperandDims := [0]
  indexVectorDim := 1
  wf := scatter_S4096x32_S100000x1_S100000x32_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf
def dot_S4096x32_S32x6_S4096x6_1_0_0_1_n_n : DotDims S4096x32 S32x6 S4096x6 where
  lhsContracting := [1]
  rhsContracting := [0]
  lhsNonContracting := [0]
  rhsNonContracting := [1]
  lhsBatch := []
  rhsBatch := []
  wf := dot_S4096x32_S32x6_S4096x6_1_0_0_1_n_n_wf

class Facts : Prop extends Facts₀ where

variable [Facts]
-- ==== Proof.KernelRun.lean ====
/-
  The idealized kernel program's run with its RESULT named. The program is seven kernel regions among stretches of host
  operations; the buffer contents at the boundaries between them form a fold from the launch memory (a stretch applies
  its operations, a region replaces its arrays by what its write-backs leave and keeps every other buffer). Every weakly
  fair execution terminates, nothing faulting, with the result array at the last boundary's contents and the arguments
  as launched. The later modules read that last boundary's contents back through the fold.
-/
import proofs.«122370_j63024350101829_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its fourteen segments: the final state holds, at every unscoped buffer, the last boundary's
    contents; read at the result array and at each argument array (which no stretch and no region writes). -/
theorem run_result : θ_run defs (onTc (τ := τ) (main (F := F))) ⟨m, fun _ => 0, ρ⟩ (fun r => ∀ c : Dev nD,
      r.2.mem ((c.tc : Thread nD τ).loc main_v93) = W14 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v93 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Whole

end
-- ==== Proof.Carry.lean ====
/-
  Buffers that outlive the segment that wrote them. The idealized kernel program computes the edge lists (the source
  and the target node of every edge) and the edge normalisation in its first stretch of host operations, and three
  later stretches read them; each argument array is read by one later stretch or region. No stretch in between writes
  these buffers and no region in between has them among its arrays, so each holds, where it is read, what it held when
  it was written (or launched). Stated for any float values: nothing here looks inside a value.
-/
import proofs.«122370_j63024350101829_1_alg».proof.Proof.KernelRun

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A buffer that none of a stretch's operations writes keeps its contents through the stretch. -/
macro "host_keeps " ops:ident : term => `(StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-- The node features reach the first region as launched. -/
theorem W1_arg0 : W1 m ρ c (Proc.devRef .tc main_arg0) = m ((c : Thread nD τ).loc main_arg0) :=
  (host_keeps hostOps0 : W1 m ρ c (Proc.devRef .tc main_arg0) = W0 m ρ c (Proc.devRef .tc main_arg0)).trans rfl

/-- The first weights reach the first region as launched. -/
theorem W1_arg3 : W1 m ρ c (Proc.devRef .tc main_arg3) = m ((c : Thread nD τ).loc main_arg3) :=
  (host_keeps hostOps0 : W1 m ρ c (Proc.devRef .tc main_arg3) = W0 m ρ c (Proc.devRef .tc main_arg3)).trans rfl

/-- The first region does not have the edges' source nodes among its arrays. -/
theorem W2_row : W2 m ρ c (Proc.devRef .tc main_v3) = W1 m ρ c (Proc.devRef .tc main_v3) :=
  (W2_of_ne m ρ c main_v3 (by decide))

/-- Nothing up to the second layer's aggregation writes the edges' source nodes. -/
theorem W6_row : W6 m ρ c (Proc.devRef .tc main_v3) = W1 m ρ c (Proc.devRef .tc main_v3) :=
  ((W6_of_ne m ρ c main_v3 (by decide)).trans ((host_keeps hostOps2 : W5 m ρ c (Proc.devRef .tc main_v3) = W4 m ρ c (Proc.devRef .tc main_v3)).trans ((W4_of_ne m ρ c main_v3 (by decide)).trans ((host_keeps hostOps1 : W3 m ρ c (Proc.devRef .tc main_v3) = W2 m ρ c (Proc.devRef .tc main_v3)))))).trans (W2_row m ρ c)

/-- Nothing up to the third layer's aggregation writes the edges' source nodes. -/
theorem W10_row : W10 m ρ c (Proc.devRef .tc main_v3) = W1 m ρ c (Proc.devRef .tc main_v3) :=
  ((W10_of_ne m ρ c main_v3 (by decide)).trans ((host_keeps hostOps4 : W9 m ρ c (Proc.devRef .tc main_v3) = W8 m ρ c (Proc.devRef .tc main_v3)).trans ((W8_of_ne m ρ c main_v3 (by decide)).trans ((host_keeps hostOps3 : W7 m ρ c (Proc.devRef .tc main_v3) = W6 m ρ c (Proc.devRef .tc main_v3)))))).trans (W6_row m ρ c)

/-- The first region does not have the edges' target nodes among its arrays. -/
theorem W2_col : W2 m ρ c (Proc.devRef .tc main_v6) = W1 m ρ c (Proc.devRef .tc main_v6) :=
  (W2_of_ne m ρ c main_v6 (by decide))

/-- Nothing up to the second layer's aggregation writes the edges' target nodes. -/
theorem W6_col : W6 m ρ c (Proc.devRef .tc main_v6) = W1 m ρ c (Proc.devRef .tc main_v6) :=
  ((W6_of_ne m ρ c main_v6 (by decide)).trans ((host_keeps hostOps2 : W5 m ρ c (Proc.devRef .tc main_v6) = W4 m ρ c (Proc.devRef .tc main_v6)).trans ((W4_of_ne m ρ c main_v6 (by decide)).trans ((host_keeps hostOps1 : W3 m ρ c (Proc.devRef .tc main_v6) = W2 m ρ c (Proc.devRef .tc main_v6)))))).trans (W2_col m ρ c)

/-- Nothing up to the third layer's aggregation writes the edges' target nodes. -/
theorem W10_col : W10 m ρ c (Proc.devRef .tc main_v6) = W1 m ρ c (Proc.devRef .tc main_v6) :=
  ((W10_of_ne m ρ c main_v6 (by decide)).trans ((host_keeps hostOps4 : W9 m ρ c (Proc.devRef .tc main_v6) = W8 m ρ c (Proc.devRef .tc main_v6)).trans ((W8_of_ne m ρ c main_v6 (by decide)).trans ((host_keeps hostOps3 : W7 m ρ c (Proc.devRef .tc main_v6) = W6 m ρ c (Proc.devRef .tc main_v6)))))).trans (W6_col m ρ c)

/-- The first region does not have the edge normalisation among its arrays. -/
theorem W2_nrm : W2 m ρ c (Proc.devRef .tc main_v29) = W1 m ρ c (Proc.devRef .tc main_v29) :=
  (W2_of_ne m ρ c main_v29 (by decide))

/-- Nothing up to the second layer's aggregation writes the edge normalisation. -/
theorem W6_nrm : W6 m ρ c (Proc.devRef .tc main_v29) = W1 m ρ c (Proc.devRef .tc main_v29) :=
  ((W6_of_ne m ρ c main_v29 (by decide)).trans ((host_keeps hostOps2 : W5 m ρ c (Proc.devRef .tc main_v29) = W4 m ρ c (Proc.devRef .tc main_v29)).trans ((W4_of_ne m ρ c main_v29 (by decide)).trans ((host_keeps hostOps1 : W3 m ρ c (Proc.devRef .tc main_v29) = W2 m ρ c (Proc.devRef .tc main_v29)))))).trans (W2_nrm m ρ c)

/-- Nothing up to the third layer's aggregation writes the edge normalisation. -/
theorem W10_nrm : W10 m ρ c (Proc.devRef .tc main_v29) = W1 m ρ c (Proc.devRef .tc main_v29) :=
  ((W10_of_ne m ρ c main_v29 (by decide)).trans ((host_keeps hostOps4 : W9 m ρ c (Proc.devRef .tc main_v29) = W8 m ρ c (Proc.devRef .tc main_v29)).trans ((W8_of_ne m ρ c main_v29 (by decide)).trans ((host_keeps hostOps3 : W7 m ρ c (Proc.devRef .tc main_v29) = W6 m ρ c (Proc.devRef .tc main_v29)))))).trans (W6_nrm m ρ c)

/-- Argument 4 reaches the segment that reads it as launched: nothing before that segment writes it. -/
theorem W2_arg4 : W2 m ρ c (Proc.devRef .tc main_arg4) = m ((c : Thread nD τ).loc main_arg4) :=
  ((W2_of_ne m ρ c main_arg4 (by decide)).trans ((host_keeps hostOps0 : W1 m ρ c (Proc.devRef .tc main_arg4) = W0 m ρ c (Proc.devRef .tc main_arg4)))).trans rfl

/-- Argument 5 reaches the segment that reads it as launched: nothing before that segment writes it. -/
theorem W5_arg5 : W5 m ρ c (Proc.devRef .tc main_arg5) = m ((c : Thread nD τ).loc main_arg5) :=
  ((host_keeps hostOps2 : W5 m ρ c (Proc.devRef .tc main_arg5) = W4 m ρ c (Proc.devRef .tc main_arg5)).trans ((W4_of_ne m ρ c main_arg5 (by decide)).trans ((host_keeps hostOps1 : W3 m ρ c (Proc.devRef .tc main_arg5) = W2 m ρ c (Proc.devRef .tc main_arg5)).trans ((W2_of_ne m ρ c main_arg5 (by decide)).trans ((host_keeps hostOps0 : W1 m ρ c (Proc.devRef .tc main_arg5) = W0 m ρ c (Proc.devRef .tc main_arg5))))))).trans rfl

/-- Argument 6 reaches the segment that reads it as launched: nothing before that segment writes it. -/
theorem W6_arg6 : W6 m ρ c (Proc.devRef .tc main_arg6) = m ((c : Thread nD τ).loc main_arg6) :=
  ((W6_of_ne m ρ c main_arg6 (by decide)).trans ((host_keeps hostOps2 : W5 m ρ c (Proc.devRef .tc main_arg6) = W4 m ρ c (Proc.devRef .tc main_arg6)).trans ((W4_of_ne m ρ c main_arg6 (by decide)).trans ((host_keeps hostOps1 : W3 m ρ c (Proc.devRef .tc main_arg6) = W2 m ρ c (Proc.devRef .tc main_arg6)).trans ((W2_of_ne m ρ c main_arg6 (by decide)).trans ((host_keeps hostOps0 : W1 m ρ c (Proc.devRef .tc main_arg6) = W0 m ρ c (Proc.devRef .tc main_arg6)))))))).trans rfl

/-- Argument 7 reaches the segment that reads it as launched: nothing before that segment writes it. -/
theorem W9_arg7 : W9 m ρ c (Proc.devRef .tc main_arg7) = m ((c : Thread nD τ).loc main_arg7) :=
  ((host_keeps hostOps4 : W9 m ρ c (Proc.devRef .tc main_arg7) = W8 m ρ c (Proc.devRef .tc main_arg7)).trans ((W8_of_ne m ρ c main_arg7 (by decide)).trans ((host_keeps hostOps3 : W7 m ρ c (Proc.devRef .tc main_arg7) = W6 m ρ c (Proc.devRef .tc main_arg7)).trans ((W6_of_ne m ρ c main_arg7 (by decide)).trans ((host_keeps hostOps2 : W5 m ρ c (Proc.devRef .tc main_arg7) = W4 m ρ c (Proc.devRef .tc main_arg7)).trans ((W4_of_ne m ρ c main_arg7 (by decide)).trans ((host_keeps hostOps1 : W3 m ρ c (Proc.devRef .tc main_arg7) = W2 m ρ c (Proc.devRef .tc main_arg7)).trans ((W2_of_ne m ρ c main_arg7 (by decide)).trans ((host_keeps hostOps0 : W1 m ρ c (Proc.devRef .tc main_arg7) = W0 m ρ c (Proc.devRef .tc main_arg7))))))))))).trans rfl

/-- Argument 8 reaches the segment that reads it as launched: nothing before that segment writes it. -/
theorem W10_arg8 : W10 m ρ c (Proc.devRef .tc main_arg8) = m ((c : Thread nD τ).loc main_arg8) :=
  ((W10_of_ne m ρ c main_arg8 (by decide)).trans ((host_keeps hostOps4 : W9 m ρ c (Proc.devRef .tc main_arg8) = W8 m ρ c (Proc.devRef .tc main_arg8)).trans ((W8_of_ne m ρ c main_arg8 (by decide)).trans ((host_keeps hostOps3 : W7 m ρ c (Proc.devRef .tc main_arg8) = W6 m ρ c (Proc.devRef .tc main_arg8)).trans ((W6_of_ne m ρ c main_arg8 (by decide)).trans ((host_keeps hostOps2 : W5 m ρ c (Proc.devRef .tc main_arg8) = W4 m ρ c (Proc.devRef .tc main_arg8)).trans ((W4_of_ne m ρ c main_arg8 (by decide)).trans ((host_keeps hostOps1 : W3 m ρ c (Proc.devRef .tc main_arg8) = W2 m ρ c (Proc.devRef .tc main_arg8)).trans ((W2_of_ne m ρ c main_arg8 (by decide)).trans ((host_keeps hostOps0 : W1 m ρ c (Proc.devRef .tc main_arg8) = W0 m ρ c (Proc.devRef .tc main_arg8)))))))))))).trans rfl

/-- Argument 2 reaches the segment that reads it as launched: nothing before that segment writes it. -/
theorem W12_arg2 : W12 m ρ c (Proc.devRef .tc main_arg2) = m ((c : Thread nD τ).loc main_arg2) :=
  ((W12_of_ne m ρ c main_arg2 (by decide)).trans ((host_keeps hostOps5 : W11 m ρ c (Proc.devRef .tc main_arg2) = W10 m ρ c (Proc.devRef .tc main_arg2)).trans ((W10_of_ne m ρ c main_arg2 (by decide)).trans ((host_keeps hostOps4 : W9 m ρ c (Proc.devRef .tc main_arg2) = W8 m ρ c (Proc.devRef .tc main_arg2)).trans ((W8_of_ne m ρ c main_arg2 (by decide)).trans ((host_keeps hostOps3 : W7 m ρ c (Proc.devRef .tc main_arg2) = W6 m ρ c (Proc.devRef .tc main_arg2)).trans ((W6_of_ne m ρ c main_arg2 (by decide)).trans ((host_keeps hostOps2 : W5 m ρ c (Proc.devRef .tc main_arg2) = W4 m ρ c (Proc.devRef .tc main_arg2)).trans ((W4_of_ne m ρ c main_arg2 (by decide)).trans ((host_keeps hostOps1 : W3 m ρ c (Proc.devRef .tc main_arg2) = W2 m ρ c (Proc.devRef .tc main_arg2)).trans ((W2_of_ne m ρ c main_arg2 (by decide)).trans ((host_keeps hostOps0 : W1 m ρ c (Proc.devRef .tc main_arg2) = W0 m ρ c (Proc.devRef .tc main_arg2)))))))))))))).trans rfl

/-- Argument 10 reaches the segment that reads it as launched: nothing before that segment writes it. -/
theorem W12_arg10 : W12 m ρ c (Proc.devRef .tc main_arg10) = m ((c : Thread nD τ).loc main_arg10) :=
  ((W12_of_ne m ρ c main_arg10 (by decide)).trans ((host_keeps hostOps5 : W11 m ρ c (Proc.devRef .tc main_arg10) = W10 m ρ c (Proc.devRef .tc main_arg10)).trans ((W10_of_ne m ρ c main_arg10 (by decide)).trans ((host_keeps hostOps4 : W9 m ρ c (Proc.devRef .tc main_arg10) = W8 m ρ c (Proc.devRef .tc main_arg10)).trans ((W8_of_ne m ρ c main_arg10 (by decide)).trans ((host_keeps hostOps3 : W7 m ρ c (Proc.devRef .tc main_arg10) = W6 m ρ c (Proc.devRef .tc main_arg10)).trans ((W6_of_ne m ρ c main_arg10 (by decide)).trans ((host_keeps hostOps2 : W5 m ρ c (Proc.devRef .tc main_arg10) = W4 m ρ c (Proc.devRef .tc main_arg10)).trans ((W4_of_ne m ρ c main_arg10 (by decide)).trans ((host_keeps hostOps1 : W3 m ρ c (Proc.devRef .tc main_arg10) = W2 m ρ c (Proc.devRef .tc main_arg10)).trans ((W2_of_ne m ρ c main_arg10 (by decide)).trans ((host_keeps hostOps0 : W1 m ρ c (Proc.devRef .tc main_arg10) = W0 m ρ c (Proc.devRef .tc main_arg10)))))))))))))).trans rfl

/-- Argument 9 reaches the segment that reads it as launched: nothing before that segment writes it. -/
theorem W13_arg9 : W13 m ρ c (Proc.devRef .tc main_arg9) = m ((c : Thread nD τ).loc main_arg9) :=
  ((host_keeps hostOps6 : W13 m ρ c (Proc.devRef .tc main_arg9) = W12 m ρ c (Proc.devRef .tc main_arg9)).trans ((W12_of_ne m ρ c main_arg9 (by decide)).trans ((host_keeps hostOps5 : W11 m ρ c (Proc.devRef .tc main_arg9) = W10 m ρ c (Proc.devRef .tc main_arg9)).trans ((W10_of_ne m ρ c main_arg9 (by decide)).trans ((host_keeps hostOps4 : W9 m ρ c (Proc.devRef .tc main_arg9) = W8 m ρ c (Proc.devRef .tc main_arg9)).trans ((W8_of_ne m ρ c main_arg9 (by decide)).trans ((host_keeps hostOps3 : W7 m ρ c (Proc.devRef .tc main_arg9) = W6 m ρ c (Proc.devRef .tc main_arg9)).trans ((W6_of_ne m ρ c main_arg9 (by decide)).trans ((host_keeps hostOps2 : W5 m ρ c (Proc.devRef .tc main_arg9) = W4 m ρ c (Proc.devRef .tc main_arg9)).trans ((W4_of_ne m ρ c main_arg9 (by decide)).trans ((host_keeps hostOps1 : W3 m ρ c (Proc.devRef .tc main_arg9) = W2 m ρ c (Proc.devRef .tc main_arg9)).trans ((W2_of_ne m ρ c main_arg9 (by decide)).trans ((host_keeps hostOps0 : W1 m ρ c (Proc.devRef .tc main_arg9) = W0 m ρ c (Proc.devRef .tc main_arg9))))))))))))))).trans rfl

/-- The first layer's rows pass the stretch that only prepares a zero bias row. -/
theorem W5_h1 : W5 m ρ c (Proc.devRef .tc main_v46) = W4 m ρ c (Proc.devRef .tc main_v46) :=
  host_keeps hostOps2

/-- The second layer's rows pass the stretch that only prepares a zero bias row. -/
theorem W9_h2 : W9 m ρ c (Proc.devRef .tc main_v63) = W8 m ρ c (Proc.devRef .tc main_v63) :=
  host_keeps hostOps4

end Cert.KernelIdeal.Whole

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«122370_j63024350101829_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«122370_j63024350101829_1_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.LibRowTanh.lean ====
/-
  A bias row added to every row of a matrix, followed by tanh, entry by entry:
  rowTanh a b (r, c) = tanh (a(r, c) + b(0, c)) on the extended reals, for an M × N matrix a and a 1 × N row b.
  The host's spelling of it — a bias vector laid out as one row, copied into every row, added, then tanh — is this
  function of the matrix and of the vector cast to a row. Also: an exact product plus a row of zeros is the product.
-/
import proofs.«122370_j63024350101829_1_alg».proof.Proof.LibExactProduct

noncomputable section

namespace RowTanh

open Idealize.ShloMosaic Idealize.ShloMosaic.ValueIdx

/-- tanh of a matrix plus a bias row added to every row. -/
def rowTanh {M N : ℕ} (a : (⟨2, ![M, N]⟩ : Shape).Idx → EReal) (b : (⟨2, ![1, N]⟩ : Shape).Idx → EReal) :
    (⟨2, ![M, N]⟩ : Shape).Idx → EReal :=
  fun i => Ideal.tanh (a i + b (ix2 (0 : Fin 1) (i 1)))

theorem rowTanh_apply {M N : ℕ} (a : (⟨2, ![M, N]⟩ : Shape).Idx → EReal) (b : (⟨2, ![1, N]⟩ : Shape).Idx → EReal)
    (r : Fin M) (c : Fin N) : rowTanh a b (ix2 r c) = Ideal.tanh (a (ix2 r c) + b (ix2 (0 : Fin 1) c)) := rfl

/-- The host's tanh of a matrix plus a bias vector copied into every row is `rowTanh` with the vector cast to a row. -/
theorem hostTanh_addRow {M N : ℕ} (a : (⟨2, ![M, N]⟩ : Shape).Idx → EReal) (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    Host.tanh (F := Ideal) (φ := .f32)
        (addf (F := Ideal) (φ := .f32) a (broadcastInDim ⟨2, ![M, N]⟩ ![0, 1] h2 (broadcastInDim ⟨2, ![1, N]⟩ ![1] h1 bp)))
      = rowTanh a (shapeCast ⟨2, ![1, N]⟩ bp hc) := by
  funext i
  obtain ⟨r, c, rfl⟩ : ∃ (r : Fin M) (c : Fin N), i = ix2 r c := ⟨i 0, i 1, eq_ix2 i⟩
  show Ideal.tanh (a (ix2 r c) + _) = Ideal.tanh (a (ix2 r c) + shapeCast ⟨2, ![1, N]⟩ bp hc (ix2 (0 : Fin 1) c))
  exact congrArg (fun z => Ideal.tanh (a (ix2 r c) + z))
    ((ExactProduct.rowOfVector_apply bp h1 h2 r c).trans (shapeCast_a_1a_apply bp hc (0 : Fin 1) c).symm)

/-- An exact product plus a row that is zero everywhere is the product: x + 0 = x on the extended reals. -/
theorem proj_zeroRow {M K N : ℕ} (x : (⟨2, ![M, K]⟩ : Shape).Idx → EReal) (w : (⟨2, ![K, N]⟩ : Shape).Idx → EReal)
    (b : (⟨2, ![1, N]⟩ : Shape).Idx → EReal) (hb : ∀ j, b j = 0) : ExactProduct.proj x w b = ExactProduct.mm x w := by
  funext i
  show ExactProduct.mm x w i + b _ = ExactProduct.mm x w i
  rw [hb, add_zero]

end RowTanh

end
-- ==== Proof.RefSpec.lean ====
/-
  The reference program's result as one closed function of its eleven arguments.
  A graph-convolution layer takes the node features h, multiplies them by the weights (h · w), gathers the product's rows
  at the edges' source nodes, scales each gathered row by the edge's normalisation, sums the scaled rows into their
  target nodes, adds the bias to every row and applies tanh. The reference applies three such layers, pools the node rows
  into their graphs (row sums divided by max(count, 1)) and ends with a product plus a bias row. The edge lists, the
  normalisation and the pooling depend on the integer arguments only and are carried as they are printed; what is read
  entry by entry are the products, the bias rows and tanh.
-/
import proofs.«122370_j63024350101829_1_alg».proof.Proof.Gen.ReferenceIdeal.Read
import proofs.«122370_j63024350101829_1_alg».proof.Proof.LibRowTanh

noncomputable section

namespace Cert.ReferenceIdeal.Spec

open Cert.ReferenceIdeal Cert.ReferenceIdeal.Gen Cert.ReferenceIdeal.Read Idealize.ShloMosaic Idealize.ShloMosaic.TcCoe
open Idealize.ShloMosaic.ValueIdx

/-- The edges' work on a matrix of node rows: gather the rows at the source nodes, scale by the edge normalisation, sum
    into the target nodes (from zero). The edge lists come from the integer argument `x1`. -/
def agg {F : FTy → Type} [FloatOps F] (x1 : (⟨S2x2500000, .i32⟩ : BufTy).Contents (Elt F)) (hw : (⟨S100000x32, .f32⟩ : BufTy).Contents (Elt F)) : (⟨S100000x32, .f32⟩ : BufTy).Contents (Elt F) :=
  Host.scatterAdd (F := F) (φ := .f32) scatter_S100000x32_S2600000x1_S2600000x32_1_0_0_1 (val_main_v40 (F := F)) (val_main_v41 (F := F) x1)
    (mulf (F := F) (φ := .f32) (Host.gather gather_S100000x32_S2600000x1_S2600000x32_1_0_n_n_0_1_132 hw (val_main_v36 (F := F) x1)) (val_main_v38 (F := F) x1))

/-- The mean of the node rows of each graph: row sums by graph, divided by max(count, 1). The graph of each node comes
    from the integer argument `x2`. -/
def pool {F : FTy → Type} [FloatOps F] (x2 : (⟨S100000, .i32⟩ : BufTy).Contents (Elt F)) (h : (⟨S100000x32, .f32⟩ : BufTy).Contents (Elt F)) : (⟨S4096x32, .f32⟩ : BufTy).Contents (Elt F) :=
  Host.divf (F := F) (φ := .f32) (Host.scatterAdd (F := F) (φ := .f32) scatter_S4096x32_S100000x1_S100000x32_1_0_0_1 (val_main_v81 (F := F)) (val_main_v82 (F := F) x2) h)
    (val_main_v90 (F := F) x2)

/-- One layer: tanh of the aggregated product plus the bias in every row. -/
def layer {K : ℕ} (x1 : (⟨S2x2500000, .i32⟩ : BufTy).Contents (Elt Ideal)) (h : (⟨2, ![100000, K]⟩ : Shape).Idx → EReal)
    (w : (⟨2, ![K, 32]⟩ : Shape).Idx → EReal) (b : (⟨1, ![32]⟩ : Shape).Idx → EReal) : (⟨2, ![100000, 32]⟩ : Shape).Idx → EReal :=
  RowTanh.rowTanh (M := 100000) (N := 32) (agg (F := Ideal) x1 (ExactProduct.mm h w)) (shapeCast ⟨2, ![1, 32]⟩ b (by decide))

/-- The whole network: three layers, the pooling, the last product plus its bias row. -/
def out (x0 : (⟨S100000x6, .f32⟩ : BufTy).Contents (Elt Ideal)) (x1 : (⟨S2x2500000, .i32⟩ : BufTy).Contents (Elt Ideal)) (x2 : (⟨S100000, .i32⟩ : BufTy).Contents (Elt Ideal))
    (x3 : (⟨S6x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal)) (x9 : (⟨S32x6, .f32⟩ : BufTy).Contents (Elt Ideal)) (x10 : (⟨S6, .f32⟩ : BufTy).Contents (Elt Ideal)) :
    (⟨2, ![4096, 6]⟩ : Shape).Idx → EReal :=
  ExactProduct.proj (M := 4096) (K := 32) (N := 6)
    (pool (F := Ideal) x2 (layer (K := 32) x1 (layer (K := 32) x1 (layer (K := 6) x1 x0 x3 x4) x5 x6) x7 x8)) x9 (shapeCast ⟨2, ![1, 6]⟩ x10 (by decide))

variable (x0 : (⟨S100000x6, .f32⟩ : BufTy).Contents (Elt Ideal)) (x1 : (⟨S2x2500000, .i32⟩ : BufTy).Contents (Elt Ideal)) (x2 : (⟨S100000, .i32⟩ : BufTy).Contents (Elt Ideal))
    (x3 : (⟨S6x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal)) (x9 : (⟨S32x6, .f32⟩ : BufTy).Contents (Elt Ideal)) (x10 : (⟨S6, .f32⟩ : BufTy).Contents (Elt Ideal))

/-- The first layer's aggregation is `agg` of the first product. -/
theorem v42_eq : val_main_v42 (F := Ideal) x0 x1 x3 = agg (F := Ideal) x1 (val_main_v30 (F := Ideal) x0 x3) := rfl

/-- The second layer's aggregation is `agg` of the second product (the same edge lists, printed again). -/
theorem v59_eq : val_main_v59 (F := Ideal) x0 x1 x3 x4 x5 = agg (F := Ideal) x1 (val_main_v47 (F := Ideal) x0 x1 x3 x4 x5) := rfl

/-- The third layer's aggregation is `agg` of the third product. -/
theorem v76_eq : val_main_v76 (F := Ideal) x0 x1 x3 x4 x5 x6 x7 = agg (F := Ideal) x1 (val_main_v64 (F := Ideal) x0 x1 x3 x4 x5 x6 x7) := rfl

/-- The pooled rows are `pool` of the third layer's rows. -/
theorem v91_eq : val_main_v91 (F := Ideal) x0 x1 x2 x3 x4 x5 x6 x7 x8 = pool (F := Ideal) x2 (val_main_v80 (F := Ideal) x0 x1 x3 x4 x5 x6 x7 x8) := rfl

/-- The first layer. -/
theorem v46_eq : val_main_v46 (F := Ideal) x0 x1 x3 x4 = layer (K := 6) x1 x0 x3 x4 := by
  unfold val_main_v46 val_main_v45 val_main_v44 val_main_v43 layer
  rw [v42_eq]
  unfold val_main_v30
  rw [ExactProduct.hostDot_eq_mm (M := 100000) (K := 6) (N := 32) dot_S100000x6_S6x32_S100000x32_1_0_0_1_n_n rfl]
  exact RowTanh.hostTanh_addRow (M := 100000) (N := 32) _ x4 _ _ _

/-- The second layer, of the first layer's rows. -/
theorem v63_eq : val_main_v63 (F := Ideal) x0 x1 x3 x4 x5 x6 = layer (K := 32) x1 (val_main_v46 (F := Ideal) x0 x1 x3 x4) x5 x6 := by
  unfold val_main_v63 val_main_v62 val_main_v61 val_main_v60 layer
  rw [v59_eq]
  unfold val_main_v47
  rw [ExactProduct.hostDot_eq_mm (M := 100000) (K := 32) (N := 32) dot_S100000x32_S32x32_S100000x32_1_0_0_1_n_n rfl]
  exact RowTanh.hostTanh_addRow (M := 100000) (N := 32) _ x6 _ _ _

/-- The third layer, of the second layer's rows. -/
theorem v80_eq : val_main_v80 (F := Ideal) x0 x1 x3 x4 x5 x6 x7 x8 = layer (K := 32) x1 (val_main_v63 (F := Ideal) x0 x1 x3 x4 x5 x6) x7 x8 := by
  unfold val_main_v80 val_main_v79 val_main_v78 val_main_v77 layer
  rw [v76_eq]
  unfold val_main_v64
  rw [ExactProduct.hostDot_eq_mm (M := 100000) (K := 32) (N := 32) dot_S100000x32_S32x32_S100000x32_1_0_0_1_n_n rfl]
  exact RowTanh.hostTanh_addRow (M := 100000) (N := 32) _ x8 _ _ _

/-- The reference's result is `out` of its arguments. -/
theorem v95_eq : val_main_v95 (F := Ideal) x0 x1 x2 x3 x4 x5 x6 x7 x8 x9 x10 = out x0 x1 x2 x3 x4 x5 x6 x7 x8 x9 x10 := by
  unfold val_main_v95 val_main_v94 val_main_v93 val_main_v92 out
  rw [v91_eq, v80_eq, v63_eq, v46_eq]
  rw [ExactProduct.hostDot_eq_mm (M := 4096) (K := 32) (N := 6) dot_S4096x32_S32x6_S4096x6_1_0_0_1_n_n rfl]
  exact ExactProduct.addRow_eq_proj (M := 4096) (K := 32) (N := 6) _ x9 x10 _ _ _

end Cert.ReferenceIdeal.Spec

end
-- ==== Proof.StretchEdges.lean ====
/-
  The first stretch of the idealized kernel program computes, from the integer edge argument alone, the source and target
  node of every edge (self loops appended) and the edge normalisation; the reference program computes the same three
  arrays by the same operations. Stated for any float values: the two programs print the same operations here.
-/
import proofs.«122370_j63024350101829_1_alg».proof.Proof.Carry
import proofs.«122370_j63024350101829_1_alg».proof.Proof.RefSpec

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

set_option maxHeartbeats 4000000 in
/-- The source node of every edge, self loops appended: the first row of the edge argument followed by 0, 1, …, as the reference prints it. -/
theorem W1_row : W1 m ρ c (Proc.devRef .tc main_v3) = Cert.ReferenceIdeal.Read.val_main_v3 (F := F) (m ((c : Thread nD τ).loc main_arg1)) := by
  show StableHlo.after hostOps0 (W0 m ρ c) (Proc.devRef .tc main_v3) = _
  after_results_simp
  rfl

set_option maxHeartbeats 4000000 in
/-- The target node of every edge, self loops appended. -/
theorem W1_col : W1 m ρ c (Proc.devRef .tc main_v6) = Cert.ReferenceIdeal.Read.val_main_v6 (F := F) (m ((c : Thread nD τ).loc main_arg1)) := by
  show StableHlo.after hostOps0 (W0 m ρ c) (Proc.devRef .tc main_v6) = _
  after_results_simp
  rfl

set_option maxHeartbeats 4000000 in
/-- The edge normalisation as one column: the inverse square roots of the degrees (at least 1) of an edge's two end nodes, multiplied. -/
theorem W1_nrm : W1 m ρ c (Proc.devRef .tc main_v29) = Cert.ReferenceIdeal.Read.val_main_v29 (F := F) (m ((c : Thread nD τ).loc main_arg1)) := by
  show StableHlo.after hostOps0 (W0 m ρ c) (Proc.devRef .tc main_v29) = _
  after_results_simp
  rfl

end Cert.KernelIdeal.Whole

end
-- ==== Proof.StretchLayers.lean ====
/-
  The later stretches of host operations of the idealized kernel program, each read at the buffers the next region
  takes. After a matmul region a stretch gathers the product's rows at the edges' source nodes, scales them by the edge
  normalisation and sums them into the target nodes — the reference's own operations on the same edge lists — and casts
  the layer's bias vector to a row; before a matmul region of a convolution layer a stretch lays out a row of zeros; the
  last stretch pools the node rows by graph and casts the classifier bias to a row. Stated for any float values.
-/
import proofs.«122370_j63024350101829_1_alg».proof.Proof.StretchEdges

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A row of 32 zeros, as the program lays it out: the zero word copied into a vector, the vector cast to a row. -/
def zeroRow32 : (⟨S1x32, .f32⟩ : BufTy).Contents (Elt F) :=
  shapeCast S1x32 (broadcastInDim S32 ![] bcast_S_S32 (constant (F := F) S_ .f32 0x00000000#32)) shapeCasts_S32_S1x32

/-- A vector of 32 entries cast to a row. -/
def asRow32 (b : (⟨S32, .f32⟩ : BufTy).Contents (Elt F)) : (⟨S1x32, .f32⟩ : BufTy).Contents (Elt F) := shapeCast S1x32 b shapeCasts_S32_S1x32

/-- A vector of 6 entries cast to a row. -/
def asRow6 (b : (⟨S6, .f32⟩ : BufTy).Contents (Elt F)) : (⟨S1x6, .f32⟩ : BufTy).Contents (Elt F) := shapeCast S1x6 b shapeCasts_S6_S1x6

set_option maxHeartbeats 4000000 in
/-- The first product's bias row is the row of zeros. -/
theorem W1_zero : W1 m ρ c (Proc.devRef .tc main_v31) = zeroRow32 (F := F) := by
  show StableHlo.after hostOps0 (W0 m ρ c) (Proc.devRef .tc main_v31) = _
  after_results_simp
  rfl

set_option maxHeartbeats 4000000 in
/-- The stretch after the first product gathers the product's rows at the edges' source nodes, scales each by the edge normalisation and sums them into the target nodes, as the reference does. -/
theorem W3_agg : W3 m ρ c (Proc.devRef .tc main_v44) = Cert.ReferenceIdeal.Spec.agg (F := F) (m ((c : Thread nD τ).loc main_arg1)) (W2 m ρ c (Proc.devRef .tc main_v32)) := by
  show StableHlo.after hostOps1 (W2 m ρ c) (Proc.devRef .tc main_v44) = _
  after_results_simp
  rw [W2_row m ρ c, W2_col m ρ c, W2_nrm m ρ c, W1_row m ρ c, W1_col m ρ c, W1_nrm m ρ c]
  rfl

set_option maxHeartbeats 4000000 in
/-- The first bias, cast to a row. -/
theorem W3_bias : W3 m ρ c (Proc.devRef .tc main_v45) = asRow32 (m ((c : Thread nD τ).loc main_arg4)) := by
  show StableHlo.after hostOps1 (W2 m ρ c) (Proc.devRef .tc main_v45) = _
  after_results_simp
  rw [W2_arg4 m ρ c]
  rfl

set_option maxHeartbeats 4000000 in
/-- The second product's bias row is the row of zeros. -/
theorem W5_zero : W5 m ρ c (Proc.devRef .tc main_v48) = zeroRow32 (F := F) := by
  show StableHlo.after hostOps2 (W4 m ρ c) (Proc.devRef .tc main_v48) = _
  after_results_simp
  rfl

set_option maxHeartbeats 4000000 in
/-- The second layer's aggregation over the edges. -/
theorem W7_agg : W7 m ρ c (Proc.devRef .tc main_v61) = Cert.ReferenceIdeal.Spec.agg (F := F) (m ((c : Thread nD τ).loc main_arg1)) (W6 m ρ c (Proc.devRef .tc main_v49)) := by
  show StableHlo.after hostOps3 (W6 m ρ c) (Proc.devRef .tc main_v61) = _
  after_results_simp
  rw [W6_row m ρ c, W6_col m ρ c, W6_nrm m ρ c, W1_row m ρ c, W1_col m ρ c, W1_nrm m ρ c]
  rfl

set_option maxHeartbeats 4000000 in
/-- The second bias, cast to a row. -/
theorem W7_bias : W7 m ρ c (Proc.devRef .tc main_v62) = asRow32 (m ((c : Thread nD τ).loc main_arg6)) := by
  show StableHlo.after hostOps3 (W6 m ρ c) (Proc.devRef .tc main_v62) = _
  after_results_simp
  rw [W6_arg6 m ρ c]
  rfl

set_option maxHeartbeats 4000000 in
/-- The third product's bias row is the row of zeros. -/
theorem W9_zero : W9 m ρ c (Proc.devRef .tc main_v65) = zeroRow32 (F := F) := by
  show StableHlo.after hostOps4 (W8 m ρ c) (Proc.devRef .tc main_v65) = _
  after_results_simp
  rfl

set_option maxHeartbeats 4000000 in
/-- The third layer's aggregation over the edges. -/
theorem W11_agg : W11 m ρ c (Proc.devRef .tc main_v78) = Cert.ReferenceIdeal.Spec.agg (F := F) (m ((c : Thread nD τ).loc main_arg1)) (W10 m ρ c (Proc.devRef .tc main_v66)) := by
  show StableHlo.after hostOps5 (W10 m ρ c) (Proc.devRef .tc main_v78) = _
  after_results_simp
  rw [W10_row m ρ c, W10_col m ρ c, W10_nrm m ρ c, W1_row m ρ c, W1_col m ρ c, W1_nrm m ρ c]
  rfl

set_option maxHeartbeats 4000000 in
/-- The third bias, cast to a row. -/
theorem W11_bias : W11 m ρ c (Proc.devRef .tc main_v79) = asRow32 (m ((c : Thread nD τ).loc main_arg8)) := by
  show StableHlo.after hostOps5 (W10 m ρ c) (Proc.devRef .tc main_v79) = _
  after_results_simp
  rw [W10_arg8 m ρ c]
  rfl

set_option maxHeartbeats 4000000 in
/-- The last stretch pools the node rows by graph — row sums by graph divided by max(count, 1) — as the reference does. -/
theorem W13_pool : W13 m ρ c (Proc.devRef .tc main_v91) = Cert.ReferenceIdeal.Spec.pool (F := F) (m ((c : Thread nD τ).loc main_arg2)) (W12 m ρ c (Proc.devRef .tc main_v80)) := by
  show StableHlo.after hostOps6 (W12 m ρ c) (Proc.devRef .tc main_v91) = _
  after_results_simp
  rw [W12_arg2 m ρ c]
  rfl

set_option maxHeartbeats 4000000 in
/-- The classifier bias, cast to a row. -/
theorem W13_bias : W13 m ρ c (Proc.devRef .tc main_v92) = asRow6 (m ((c : Thread nD τ).loc main_arg10)) := by
  show StableHlo.after hostOps6 (W12 m ρ c) (Proc.devRef .tc main_v92) = _
  after_results_simp
  rw [W12_arg10 m ρ c]
  rfl

end Cert.KernelIdeal.Whole

end
-- ==== Proof.Region0.lean ====
/-
  Region 0: a row-tiled matrix product with a bias row.

  The region multiplies a 100000 × 6 matrix x by a 6 × 32 matrix w and adds a 1 × 32 bias row b to every row of the
  product. It does so in ten steps: step t takes rows 10000·t … 10000·t + 9999 of x, the whole of w and the whole of b,
  forms (rows of x) · w exactly, starting from a zero accumulator, adds b to every row, and writes the 10000 × 32 result
  into rows 10000·t … 10000·t + 9999 of the output. The narrowing of x and w before the product is the identity on the
  extended reals.

  Entry (r, c) of the product depends only on row r of x and column c of w, so the block written at step t is the
  whole-array function  (r, c) ↦ Σ_k x(r, k) · w(k, c) + b(0, c)  restricted to the block's rows. The ten blocks tile
  the rows of the output (row r lies in the block of step r / 10000), so after the last step the output array is that
  function.
-/
import proofs.«122370_j63024350101829_1_alg».proof.Proof.Gen.KernelIdeal.Frame
import proofs.«122370_j63024350101829_1_alg».proof.Proof.LibExactProduct
import Idealize.ShloMosaic.Lib.Pipeline.Value
import Idealize.ShloMosaic.Lib.ValueIdx
import Idealize.ShloMosaic.Lib.ValueLayout

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- What one step computes, entry by entry: the product of the row block and the right operand plus the bias row,
    (p, q) ↦ Σ_k x(p, k) · w(k, q) + b(0, q). -/
theorem payload_apply (x0 : Vec Ideal S10000x6 .f32) (x1 : Vec Ideal S6x32 .f32) (x2 : Vec Ideal S1x32 .f32)
    (p : Fin 10000) (q : Fin 32) :
    k0_pay1 x0 x1 x2 (ix2 p q) = (∑ k : Fin 6, x0 (ix2 p k) * x1 (ix2 k q)) + x2 (ix2 (0 : Fin 1) q) := by
  unfold k0_pay1
  refine (addf_apply _ _ (ix2 p q)).trans ?_
  refine congr (congrArg HAdd.hAdd ?_) ?_
  · exact PlainMatmul.apply_zero (M := 10000) (K := 6) (N := 32) (φ₁ := .bf16) (φ₂ := .bf16)
      (truncf .bf16 x0 bitsLt_bf16_f32) (truncf .bf16 x1 bitsLt_bf16_f32) p q
  · rw [shapeCast_self]
    exact broadcastTo_1b_ab_apply x2 broadcasts_S1x32_S10000x32 p q

/-- One step's result at (p, q) is the whole-array function at an index i of the output, as soon as row p of the
    step's row block is row i₀ of the left operand, column q of the staged right operand is column i₁ of the right
    operand, and entry q of the staged bias row is entry i₁ of the bias row. -/
theorem payload_eq_proj (x0 : Vec Ideal S10000x6 .f32) (x1 : Vec Ideal S6x32 .f32) (x2 : Vec Ideal S1x32 .f32)
    (A0 : S100000x6.Idx → EReal) (A1 : S6x32.Idx → EReal) (A2 : S1x32.Idx → EReal)
    (i : S100000x32.Idx) (p : Fin 10000) (q : Fin 32)
    (h0 : ∀ k : Fin 6, x0 (ix2 p k) = A0 (ix2 (i 0) k))
    (h1 : ∀ k : Fin 6, x1 (ix2 k q) = A1 (ix2 k (i 1)))
    (h2 : x2 (ix2 (0 : Fin 1) q) = A2 (ix2 (0 : Fin 1) (i 1))) :
    k0_pay1 x0 x1 x2 (ix2 p q) = ExactProduct.proj (M := 100000) (K := 6) (N := 32) A0 A1 A2 i := by
  rw [payload_apply, h2]
  show _ = (∑ k : Fin 6, A0 (ix2 (i 0) k) * A1 (ix2 k (i 1))) + A2 (ix2 (0 : Fin 1) (i 1))
  refine congrArg (· + A2 (ix2 (0 : Fin 1) (i 1))) (Finset.sum_congr rfl fun k _ => ?_)
  rw [h0, h1]

/-- The block indices over the ten steps: the left operand's and the output's row block is the step's number, their
    column block is 0, and the right operand and the bias row are always at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of step t's block of the left operand is the row of the left operand that entry (p, q) of step t's block of
    the output sits in. -/
theorem left_rows (c : Dev nD) (t : Fin cfg0.N) (p : Fin 10000) (q : Fin 32) (k : Fin 6) :
    iblk0 V c 0 t (ix2 p k)
      = V c (Pipeline.arrRef spec0 0) (ix2 ((((cfg0.win 3).blk t).view.emb (ix2 p q)) 0) k) := by
  obtain ⟨e00, e01, -, -, -, -, e30, e31⟩ := block_indices t
  have hk : k.val < 6 := k.isLt
  show V c (Pipeline.arrRef spec0 0) (((cfg0.win 0).blk t).view.emb (ix2 p k)) = V c (Pipeline.arrRef spec0 0) _
  refine congrArg (V c (Pipeline.arrRef spec0 0)) (funext fun a => Fin.ext ?_)
  match a with
  | ⟨0, _⟩ =>
    show win0_0.index t (0 : Fin 2) * 10000 + 1 * p.val = win0_3.index t (0 : Fin 2) * 10000 + 1 * p.val
    omega
  | ⟨1, _⟩ =>
    show win0_0.index t (1 : Fin 2) * 6 + 1 * k.val = k.val
    omega

/-- Column q of the staged right operand is the column of the right operand that entry (p, q) of step t's block of the
    output sits in. -/
theorem right_cols (c : Dev nD) (t : Fin cfg0.N) (p : Fin 10000) (q : Fin 32) (k : Fin 6) :
    iblk0 V c 1 t (ix2 k q)
      = V c (Pipeline.arrRef spec0 1) (ix2 k ((((cfg0.win 3).blk t).view.emb (ix2 p q)) 1)) := by
  obtain ⟨-, -, e10, e11, -, -, e30, e31⟩ := block_indices t
  have hk : k.val < 6 := k.isLt
  show V c (Pipeline.arrRef spec0 1) (((cfg0.win 1).blk t).view.emb (ix2 k q)) = V c (Pipeline.arrRef spec0 1) _
  refine congrArg (V c (Pipeline.arrRef spec0 1)) (funext fun a => Fin.ext ?_)
  match a with
  | ⟨0, _⟩ =>
    show win0_1.index t (0 : Fin 2) * 6 + 1 * k.val = k.val
    omega
  | ⟨1, _⟩ =>
    show win0_1.index t (1 : Fin 2) * 32 + 1 * q.val = win0_3.index t (1 : Fin 2) * 32 + 1 * q.val
    omega

/-- Entry q of the staged bias row is the entry of the bias row over the column that entry (p, q) of step t's block of
    the output sits in. -/
theorem bias_entry (c : Dev nD) (t : Fin cfg0.N) (p : Fin 10000) (q : Fin 32) :
    iblk0 V c 2 t (ix2 (0 : Fin 1) q)
      = V c (Pipeline.arrRef spec0 2) (ix2 (0 : Fin 1) ((((cfg0.win 3).blk t).view.emb (ix2 p q)) 1)) := by
  obtain ⟨-, -, -, -, e20, e21, e30, e31⟩ := block_indices t
  show V c (Pipeline.arrRef spec0 2) (((cfg0.win 2).blk t).view.emb (ix2 (0 : Fin 1) q)) = V c (Pipeline.arrRef spec0 2) _
  refine congrArg (V c (Pipeline.arrRef spec0 2)) (funext fun a => Fin.ext ?_)
  match a with
  | ⟨0, _⟩ =>
    show win0_2.index t (0 : Fin 2) * 1 + 1 * 0 = 0
    omega
  | ⟨1, _⟩ =>
    show win0_2.index t (1 : Fin 2) * 32 + 1 * q.val = win0_3.index t (1 : Fin 2) * 32 + 1 * q.val
    omega

/-- What step t writes back is the whole-array function restricted to the step's block of the output. -/
theorem flushed_eq (c : Dev nD) (t : Fin cfg0.N) :
    (dat0 (F := Ideal) V c).flushed 3 t = ((cfg0.win 3).blk t).view.read (Elt Ideal)
      (ExactProduct.proj (M := 100000) (K := 6) (N := 32) (V c (Pipeline.arrRef spec0 0)) (V c (Pipeline.arrRef spec0 1))
        (V c (Pipeline.arrRef spec0 2))) := by
  show (cfg0.win 3).cut (grid0.coords t) ((dat0 (F := Ideal) V c).after 3 t) = _
  rw [after0_3]
  unfold out0_3
  rw [View.canon_unit_zero zero_offsets]
  simp only [View.ld_unit_zero (S := S10000x6) zero_offsets, View.ld_unit_zero (S := S6x32) zero_offsets,
    View.ld_unit_zero (S := S1x32) zero_offsets]
  funext j
  obtain ⟨p, q, rfl⟩ : ∃ (p : Fin 10000) (q : Fin 32), j = ix2 p q := ⟨j 0, j 1, eq_ix2 j⟩
  exact payload_eq_proj (iblk0 V c 0 t) (iblk0 V c 1 t) (iblk0 V c 2 t) (V c (Pipeline.arrRef spec0 0))
    (V c (Pipeline.arrRef spec0 1)) (V c (Pipeline.arrRef spec0 2)) (((cfg0.win 3).blk t).view.emb (ix2 p q)) p q
    (fun k => left_rows V c t p q k) (fun k => right_cols V c t p q k) (bias_entry V c t p q)

/-- An index of the output lies in step t's block iff, on each axis, its coordinate lies in the block's range. -/
theorem mem_block (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v32).slice (win0_3.rect t)).set ↔ _
  rw [View.set_slice_whole, Rect.mem_set_unit]
  exact Iff.rfl

/-- The ten blocks tile the output: row r lies in the block of step r / 10000, and every step writes its block back. -/
theorem cover (i : S100000x32.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 32 := (i 1).isLt
  have hlt : (i 0).val / 10000 < cfg0.N := by rw [hN]; omega
  refine ⟨⟨(i 0).val / 10000, hlt⟩, flush0_3 _, ?_⟩
  rw [mem_block]
  obtain ⟨-, -, -, -, -, -, e30, e31⟩ := block_indices ⟨(i 0).val / 10000, hlt⟩
  have e30' : win0_3.index ⟨(i 0).val / 10000, hlt⟩ (0 : Fin 2) = (i 0).val / 10000 := e30
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    omega
  | ⟨1, _⟩ =>
    show win0_3.index ⟨(i 0).val / 10000, hlt⟩ (1 : Fin 2) * 32 ≤ (i 1).val
      ∧ (i 1).val < win0_3.index ⟨(i 0).val / 10000, hlt⟩ (1 : Fin 2) * 32 + 32
    omega

/-- After the last step the output array is the product plus the bias row, as one function of the three arrays the
    region found on entry. -/
theorem value (V : (c : Dev nD) → (b : Ref sig .tc) → Buf (Elt Ideal) ((c : Thread nD τ).loc b)) (c : Dev nD) :
    (dat0 (F := Ideal) V c).arrAt 3 cfg0.N
      = ExactProduct.proj (M := 100000) (K := 6) (N := 32) (V c (Pipeline.arrRef spec0 0)) (V c (Pipeline.arrRef spec0 1))
          (V c (Pipeline.arrRef spec0 2)) :=
  (dat0 (F := Ideal) V c).arrAt_eq_of_cover 3 _ (fun t _ => flushed_eq V c t) cover

end Cert.KernelIdeal.Region0

end
-- ==== Proof.Region1.lean ====
/-
  The bias-and-tanh step on the 100000 × 32 activations: the result array after the region is, entry by entry,
  tanh (x(r, c) + b(0, c)) of the operand x and the 1 × 32 bias row b as the region finds them.

  Why: the grid has 10 points. Point t stages rows 10000·t … 10000·t + 9999 of x together with the whole bias row,
  computes tanh (block + bias row copied into every row of the block) and writes the result back to the same rows of
  the result array. The entry at row p, column q of that block therefore depends only on x(10000·t + p, q) and b(0, q):
  the block is the function tanh (x + b) restricted to its rows. The ten row blocks tile the 100000 rows (row r lies in
  the block of point r / 10000, and every point writes back), so the array ends holding that one function everywhere.
-/
import proofs.«122370_j63024350101829_1_alg».proof.Proof.Gen.KernelIdeal.Frame
import proofs.«122370_j63024350101829_1_alg».proof.Proof.LibRowTanh
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The offsets (0, 0), as the constant function 0. -/
theorem zeroOffsets : (![0, 0] : Fin 2 → Nat) = fun _ => 0 := funext fun a => by fin_cases a <;> rfl

/-- The body's stored value at row p, column q of a block: tanh of the block's entry plus the bias row's entry in
    column q. The two casts are to the same shape, and the broadcast copies the one row into every row. -/
theorem payload_at (x0 : Vec Ideal S10000x32 .f32) (x1 : Vec Ideal S1x32 .f32) (p : Fin 10000) (q : Fin 32) :
    k1_pay1 x0 x1 (ix2 p q) = Ideal.tanh (x0 (ix2 p q) + x1 (ix2 (0 : Fin 1) q)) := by
  unfold k1_pay1
  show Ideal.tanh (shapeCast S10000x32 x0 _ (ix2 p q) + broadcastTo S10000x32 (shapeCast S1x32 x1 _) _ (ix2 p q)) = _
  rw [shapeCast_self, shapeCast_self, broadcastTo_1b_ab_apply]

/-- The same at any index of the block. -/
theorem payload_apply (x0 : Vec Ideal S10000x32 .f32) (x1 : Vec Ideal S1x32 .f32) (j : S10000x32.Idx) :
    k1_pay1 x0 x1 j = Ideal.tanh (x0 j + x1 (ix2 (0 : Fin 1) (j 1))) := by
  obtain ⟨p, q, rfl⟩ : ∃ (p : Fin 10000) (q : Fin 32), j = ix2 p q := ⟨j 0, j 1, eq_ix2 j⟩
  exact payload_at x0 x1 p q

/-- The block indices over the grid: the operand's and the result's blocks are the same rows, block t of 10; the bias
    row's block is always the whole row. -/
theorem index_facts : ∀ t : Fin cfg1.N,
    win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- One entry of a block, for any two arrays A (100000 × 32) and B (1 × 32): tanh of A read where the operand's block
    sits plus B read where the bias row's block sits is tanh (A + B's row) read where the result's block sits, since the
    operand's and the result's blocks are the same rows and the bias row's block is the whole row. -/
theorem block_entry (A : S100000x32.Idx → EReal) (B : S1x32.Idx → EReal) (t : Fin cfg1.N) (j : S10000x32.Idx) :
    Ideal.tanh (A (((cfg1.win 0).blk t).view.emb j) + B (((cfg1.win 1).blk t).view.emb (ix2 (0 : Fin 1) (j 1))))
      = RowTanh.rowTanh (M := 100000) (N := 32) A B (((cfg1.win 2).blk t).view.emb j) := by
  obtain ⟨e0, e1, e2, e3, e4, e5⟩ := index_facts t
  show _ = Ideal.tanh (A (((cfg1.win 2).blk t).view.emb j) + B (ix2 (0 : Fin 1) ((((cfg1.win 2).blk t).view.emb j) 1)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 32 + 1 * (j 1).val = win1_2.index t (1 : Fin 2) * 32 + 1 * (j 1).val; omega
  rw [h0, h1]
  rfl

variable (V : (c : Dev nD) → (b : Ref sig .tc) → Buf (Elt Ideal) ((c : Thread nD τ).loc b))

/-- What point t writes back is the rows of block t of tanh (x + b), x and b the arrays as the region finds them. -/
theorem flushed_eq (c : Dev nD) (t : Fin cfg1.N) :
    (dat1 (F := Ideal) V c).flushed 2 t
      = ((cfg1.win 2).blk t).view.read (Elt Ideal)
          (RowTanh.rowTanh (M := 100000) (N := 32) (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero zeroOffsets]
  simp only [View.ld_unit_zero (S := S10000x32) zeroOffsets, View.ld_unit_zero (S := S1x32) zeroOffsets]
  funext j
  refine (payload_apply _ _ j).trans ?_
  exact block_entry (V c (Pipeline.arrRef spec1 0)) (V c (Pipeline.arrRef spec1 1)) t j

/-- An index of the result array lies in point t's block iff, on each axis, its coordinate lies in the block's range. -/
theorem mem_block (t : Fin cfg1.N) (i : S100000x32.Idx) :
    i ∈ ((cfg1.win 2).blk t).view.set
      ↔ ∀ a : Fin 2, win1_2.index t a * S10000x32.size a ≤ (i a).val
          ∧ (i a).val < win1_2.index t a * S10000x32.size a + S10000x32.size a := by
  show i ∈ ((View.whole main_v46).slice (win1_2.rect t)).set ↔ _
  rw [View.set_slice_whole, Rect.mem_set_unit]
  exact Iff.rfl

/-- The row blocks tile the array: row r lies in the block of point r / 10000, which is written back. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := index_facts t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 32 ≤ (i 1).val ∧ (i 1).val < win1_2.index t (1 : Fin 2) * 32 + 32
    omega

/-- The result array after the region: tanh (x + b) entry by entry, b's one row added to every row of x. -/
theorem value (c : Dev nD) :
    (dat1 (F := Ideal) V c).arrAt 2 cfg1.N
      = RowTanh.rowTanh (M := 100000) (N := 32) (V c (Pipeline.arrRef spec1 0)) (V c (Pipeline.arrRef spec1 1)) :=
  (dat1 (F := Ideal) V c).arrAt_eq_of_cover 2 _ (fun t _ => flushed_eq V c t) cover

end Cert.KernelIdeal.Region1

end
-- ==== Proof.Region2.lean ====
/-
  Region 2: a row-tiled matrix product with a bias row.

  The region multiplies a 100000 × 32 matrix x by a 32 × 32 matrix w and adds a 1 × 32 bias row b to every row of the
  product. It does so in ten steps: step t takes rows 10000·t … 10000·t + 9999 of x, the whole of w and the whole of b,
  forms (rows of x) · w exactly, starting from a zero accumulator, adds b to every row, and writes the 10000 × 32 result
  into rows 10000·t … 10000·t + 9999 of the output. The narrowing of x and w before the product is the identity on the
  extended reals.

  Entry (r, c) of the product depends only on row r of x and column c of w, so the block written at step t is the
  whole-array function  (r, c) ↦ Σ_k x(r, k) · w(k, c) + b(0, c)  restricted to the block's rows. The ten blocks tile
  the rows of the output (row r lies in the block of step r / 10000), so after the last step the output array is that
  function.
-/
import proofs.«122370_j63024350101829_1_alg».proof.Proof.Gen.KernelIdeal.Frame
import proofs.«122370_j63024350101829_1_alg».proof.Proof.LibExactProduct
import Idealize.ShloMosaic.Lib.Pipeline.Value
import Idealize.ShloMosaic.Lib.ValueIdx
import Idealize.ShloMosaic.Lib.ValueLayout

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- What one step computes, entry by entry: the product of the row block and the right operand plus the bias row,
    (p, q) ↦ Σ_k x(p, k) · w(k, q) + b(0, q). -/
theorem payload_apply (x0 : Vec Ideal S10000x32 .f32) (x1 : Vec Ideal S32x32 .f32) (x2 : Vec Ideal S1x32 .f32)
    (p : Fin 10000) (q : Fin 32) :
    k2_pay1 x0 x1 x2 (ix2 p q) = (∑ k : Fin 32, x0 (ix2 p k) * x1 (ix2 k q)) + x2 (ix2 (0 : Fin 1) q) := by
  unfold k2_pay1
  refine (addf_apply _ _ (ix2 p q)).trans ?_
  refine congr (congrArg HAdd.hAdd ?_) ?_
  · rw [shapeCast_self]
    exact PlainMatmul.apply_zero (M := 10000) (K := 32) (N := 32) (φ₁ := .bf16) (φ₂ := .bf16)
      (truncf .bf16 x0 bitsLt_bf16_f32) (truncf .bf16 x1 bitsLt_bf16_f32) p q
  · rw [shapeCast_self]
    exact broadcastTo_1b_ab_apply x2 broadcasts_S1x32_S10000x32 p q

/-- One step's result at (p, q) is the whole-array function at an index i of the output, as soon as row p of the
    step's row block is row i₀ of the left operand, column q of the staged right operand is column i₁ of the right
    operand, and entry q of the staged bias row is entry i₁ of the bias row. -/
theorem payload_eq_proj (x0 : Vec Ideal S10000x32 .f32) (x1 : Vec Ideal S32x32 .f32) (x2 : Vec Ideal S1x32 .f32)
    (A0 : S100000x32.Idx → EReal) (A1 : S32x32.Idx → EReal) (A2 : S1x32.Idx → EReal)
    (i : S100000x32.Idx) (p : Fin 10000) (q : Fin 32)
    (h0 : ∀ k : Fin 32, x0 (ix2 p k) = A0 (ix2 (i 0) k))
    (h1 : ∀ k : Fin 32, x1 (ix2 k q) = A1 (ix2 k (i 1)))
    (h2 : x2 (ix2 (0 : Fin 1) q) = A2 (ix2 (0 : Fin 1) (i 1))) :
    k2_pay1 x0 x1 x2 (ix2 p q) = ExactProduct.proj (M := 100000) (K := 32) (N := 32) A0 A1 A2 i := by
  rw [payload_apply, h2]
  show _ = (∑ k : Fin 32, A0 (ix2 (i 0) k) * A1 (ix2 k (i 1))) + A2 (ix2 (0 : Fin 1) (i 1))
  refine congrArg (· + A2 (ix2 (0 : Fin 1) (i 1))) (Finset.sum_congr rfl fun k _ => ?_)
  rw [h0, h1]

/-- The block indices over the ten steps: the left operand's and the output's row block is the step's number, their
    column block is 0, and the right operand and the bias row are always at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of step t's block of the left operand is the row of the left operand that entry (p, q) of step t's block of
    the output sits in. -/
theorem left_rows (c : Dev nD) (t : Fin cfg2.N) (p : Fin 10000) (q : Fin 32) (k : Fin 32) :
    iblk2 V c 0 t (ix2 p k)
      = V c (Pipeline.arrRef spec2 0) (ix2 ((((cfg2.win 3).blk t).view.emb (ix2 p q)) 0) k) := by
  obtain ⟨e00, e01, -, -, -, -, e30, e31⟩ := block_indices t
  have hk : k.val < 32 := k.isLt
  show V c (Pipeline.arrRef spec2 0) (((cfg2.win 0).blk t).view.emb (ix2 p k)) = V c (Pipeline.arrRef spec2 0) _
  refine congrArg (V c (Pipeline.arrRef spec2 0)) (funext fun a => Fin.ext ?_)
  match a with
  | ⟨0, _⟩ =>
    show win2_0.index t (0 : Fin 2) * 10000 + 1 * p.val = win2_3.index t (0 : Fin 2) * 10000 + 1 * p.val
    omega
  | ⟨1, _⟩ =>
    show win2_0.index t (1 : Fin 2) * 32 + 1 * k.val = k.val
    omega

/-- Column q of the staged right operand is the column of the right operand that entry (p, q) of step t's block of the
    output sits in. -/
theorem right_cols (c : Dev nD) (t : Fin cfg2.N) (p : Fin 10000) (q : Fin 32) (k : Fin 32) :
    iblk2 V c 1 t (ix2 k q)
      = V c (Pipeline.arrRef spec2 1) (ix2 k ((((cfg2.win 3).blk t).view.emb (ix2 p q)) 1)) := by
  obtain ⟨-, -, e10, e11, -, -, e30, e31⟩ := block_indices t
  have hk : k.val < 32 := k.isLt
  show V c (Pipeline.arrRef spec2 1) (((cfg2.win 1).blk t).view.emb (ix2 k q)) = V c (Pipeline.arrRef spec2 1) _
  refine congrArg (V c (Pipeline.arrRef spec2 1)) (funext fun a => Fin.ext ?_)
  match a with
  | ⟨0, _⟩ =>
    show win2_1.index t (0 : Fin 2) * 32 + 1 * k.val = k.val
    omega
  | ⟨1, _⟩ =>
    show win2_1.index t (1 : Fin 2) * 32 + 1 * q.val = win2_3.index t (1 : Fin 2) * 32 + 1 * q.val
    omega

/-- Entry q of the staged bias row is the entry of the bias row over the column that entry (p, q) of step t's block of
    the output sits in. -/
theorem bias_entry (c : Dev nD) (t : Fin cfg2.N) (p : Fin 10000) (q : Fin 32) :
    iblk2 V c 2 t (ix2 (0 : Fin 1) q)
      = V c (Pipeline.arrRef spec2 2) (ix2 (0 : Fin 1) ((((cfg2.win 3).blk t).view.emb (ix2 p q)) 1)) := by
  obtain ⟨-, -, -, -, e20, e21, e30, e31⟩ := block_indices t
  show V c (Pipeline.arrRef spec2 2) (((cfg2.win 2).blk t).view.emb (ix2 (0 : Fin 1) q)) = V c (Pipeline.arrRef spec2 2) _
  refine congrArg (V c (Pipeline.arrRef spec2 2)) (funext fun a => Fin.ext ?_)
  match a with
  | ⟨0, _⟩ =>
    show win2_2.index t (0 : Fin 2) * 1 + 1 * 0 = 0
    omega
  | ⟨1, _⟩ =>
    show win2_2.index t (1 : Fin 2) * 32 + 1 * q.val = win2_3.index t (1 : Fin 2) * 32 + 1 * q.val
    omega

/-- What step t writes back is the whole-array function restricted to the step's block of the output. -/
theorem flushed_eq (c : Dev nD) (t : Fin cfg2.N) :
    (dat2 (F := Ideal) V c).flushed 3 t = ((cfg2.win 3).blk t).view.read (Elt Ideal)
      (ExactProduct.proj (M := 100000) (K := 32) (N := 32) (V c (Pipeline.arrRef spec2 0)) (V c (Pipeline.arrRef spec2 1))
        (V c (Pipeline.arrRef spec2 2))) := by
  show (cfg2.win 3).cut (grid2.coords t) ((dat2 (F := Ideal) V c).after 3 t) = _
  rw [after2_3]
  unfold out2_3
  rw [View.canon_unit_zero zero_offsets]
  simp only [View.ld_unit_zero (S := S10000x32) zero_offsets, View.ld_unit_zero (S := S32x32) zero_offsets,
    View.ld_unit_zero (S := S1x32) zero_offsets]
  funext j
  obtain ⟨p, q, rfl⟩ : ∃ (p : Fin 10000) (q : Fin 32), j = ix2 p q := ⟨j 0, j 1, eq_ix2 j⟩
  exact payload_eq_proj (iblk2 V c 0 t) (iblk2 V c 1 t) (iblk2 V c 2 t) (V c (Pipeline.arrRef spec2 0))
    (V c (Pipeline.arrRef spec2 1)) (V c (Pipeline.arrRef spec2 2)) (((cfg2.win 3).blk t).view.emb (ix2 p q)) p q
    (fun k => left_rows V c t p q k) (fun k => right_cols V c t p q k) (bias_entry V c t p q)

/-- An index of the output lies in step t's block iff, on each axis, its coordinate lies in the block's range. -/
theorem mem_block (t : Fin cfg2.N) (i : S100000x32.Idx) :
    i ∈ ((cfg2.win 3).blk t).view.set ↔ ∀ a : Fin 2, win2_3.index t a * S10000x32.size a ≤ (i a).val
      ∧ (i a).val < win2_3.index t a * S10000x32.size a + S10000x32.size a := by
  show i ∈ ((View.whole main_v49).slice (win2_3.rect t)).set ↔ _
  rw [View.set_slice_whole, Rect.mem_set_unit]
  exact Iff.rfl

/-- The ten blocks tile the output: row r lies in the block of step r / 10000, and every step writes its block back. -/
theorem cover (i : S100000x32.Idx) :
    ∃ t : Fin cfg2.N, (cfg2.win 3).flush t = true ∧ i ∈ ((cfg2.win 3).blk t).view.set := by
  have hN : cfg2.N = 10 := N_2
  have hi0 : (i 0).val < 100000 := (i 0).isLt
  have hi1 : (i 1).val < 32 := (i 1).isLt
  have hlt : (i 0).val / 10000 < cfg2.N := by rw [hN]; omega
  refine ⟨⟨(i 0).val / 10000, hlt⟩, flush2_3 _, ?_⟩
  rw [mem_block]
  obtain ⟨-, -, -, -, -, -, e30, e31⟩ := block_indices ⟨(i 0).val / 10000, hlt⟩
  have e30' : win2_3.index ⟨(i 0).val / 10000, hlt⟩ (0 : Fin 2) = (i 0).val / 10000 := e30
  intro a
  match a with
  | ⟨0, _⟩ =>
    show win2_3.index ⟨(i 0).val / 10000, hlt⟩ (0 : Fin 2) * 10000 ≤ (i 0).val
      ∧ (i 0).val < win2_3.index ⟨(i 0).val / 10000, hlt⟩ (0 : Fin 2) * 10000 + 10000
    omega
  | ⟨1, _⟩ =>
    show win2_3.index ⟨(i 0).val / 10000, hlt⟩ (1 : Fin 2) * 32 ≤ (i 1).val
      ∧ (i 1).val < win2_3.index ⟨(i 0).val / 10000, hlt⟩ (1 : Fin 2) * 32 + 32
    omega

/-- After the last step the output array is the product plus the bias row, as one function of the three arrays the
    region found on entry. -/
theorem value (V : (c : Dev nD) → (b : Ref sig .tc) → Buf (Elt Ideal) ((c : Thread nD τ).loc b)) (c : Dev nD) :
    (dat2 (F := Ideal) V c).arrAt 3 cfg2.N
      = ExactProduct.proj (M := 100000) (K := 32) (N := 32) (V c (Pipeline.arrRef spec2 0)) (V c (Pipeline.arrRef spec2 1))
          (V c (Pipeline.arrRef spec2 2)) :=
  (dat2 (F := Ideal) V c).arrAt_eq_of_cover 3 _ (fun t _ => flushed_eq V c t) cover

end Cert.KernelIdeal.Region2

end
-- ==== Proof.Region3.lean ====
/-
  The second bias-and-tanh step on the 100000 × 32 activations: the result array after the region is, entry by entry,
  tanh (x(r, c) + b(0, c)) of the operand x and the 1 × 32 bias row b as the region finds them.

  Why: the grid has 10 points. Point t stages rows 10000·t … 10000·t + 9999 of x together with the whole bias row,
  computes tanh (block + bias row copied into every row of the block) and writes the result back to the same rows of
  the result array. The entry at row p, column q of that block therefore depends only on x(10000·t + p, q) and b(0, q):
  the block is the function tanh (x + b) restricted to its rows. The ten row blocks tile the 100000 rows (row r lies in
  the block of point r / 10000, and every point writes back), so the array ends holding that one function everywhere.
-/
import proofs.«122370_j63024350101829_1_alg».proof.Proof.Gen.KernelIdeal.Frame
import proofs.«122370_j63024350101829_1_alg».proof.Proof.LibRowTanh
import Idealize.ShloMosaic.Lib.Pipeline.Value
import Idealize.ShloMosaic.Lib.ValueLayout

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-- The offsets (0, 0), as the constant function 0. -/
theorem zeroOffsets : (![0, 0] : Fin 2 → Nat) = fun _ => 0 := funext fun a => by fin_cases a <;> rfl

/-- The body's stored value at row p, column q of a block: tanh of the block's entry plus the bias row's entry in
    column q. The two casts are to the same shape, and the broadcast copies the one row into every row. -/
theorem payload_at (x0 : Vec Ideal S10000x32 .f32) (x1 : Vec Ideal S1x32 .f32) (p : Fin 10000) (q : Fin 32) :
    k3_pay1 x0 x1 (ix2 p q) = Ideal.tanh (x0 (ix2 p q) + x1 (ix2 (0 : Fin 1) q)) := by
  unfold k3_pay1
  show Ideal.tanh (shapeCast S10000x32 x0 _ (ix2 p q) + broadcastTo S10000x32 (shapeCast S1x32 x1 _) _ (ix2 p q)) = _
  rw [shapeCast_self, shapeCast_self, broadcastTo_1b_ab_apply]

/-- The same at any index of the block. -/
theorem payload_apply (x0 : Vec Ideal S10000x32 .f32) (x1 : Vec Ideal S1x32 .f32) (j : S10000x32.Idx) :
    k3_pay1 x0 x1 j = Ideal.tanh (x0 j + x1 (ix2 (0 : Fin 1) (j 1))) := by
  obtain ⟨p, q, rfl⟩ : ∃ (p : Fin 10000) (q : Fin 32), j = ix2 p q := ⟨j 0, j 1, eq_ix2 j⟩
  exact payload_at x0 x1 p q

/-- The block indices over the grid: the operand's and the result's blocks are the same rows, block t of 10; the bias
    row's block is always the whole row. -/
theorem index_facts : ∀ t : Fin cfg3.N,
    win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- One entry of a block, for any two arrays A (100000 × 32) and B (1 × 32): tanh of A read where the operand's block
    sits plus B read where the bias row's block sits is tanh (A + B's row) read where the result's block sits, since the
    operand's and the result's blocks are the same rows and the bias row's block is the whole row. -/
theorem block_entry (A : S100000x32.Idx → EReal) (B : S1x32.Idx → EReal) (t : Fin cfg3.N) (j : S10000x32.Idx) :
    Ideal.tanh (A (((cfg3.win 0).blk t).view.emb j) + B (((cfg3.win 1).blk t).view.emb (ix2 (0 : Fin 1) (j 1))))
      = RowTanh.rowTanh (M := 100000) (N := 32) A B (((cfg3.win 2).blk t).view.emb j) := by
  obtain ⟨e0, e1, e2, e3, e4, e5⟩ := index_facts t
  show _ = Ideal.tanh (A (((cfg3.win 2).blk t).view.emb j) + B (ix2 (0 : Fin 1) ((((cfg3.win 2).blk t).view.emb j) 1)))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]
  rfl

variable (V : (c : Dev nD) → (b : Ref sig .tc) → Buf (Elt Ideal) ((c : Thread nD τ).loc b))

/-- What point t writes back is the rows of block t of tanh (x + b), x and b the arrays as the region finds them. -/
theorem flushed_eq (c : Dev nD) (t : Fin cfg3.N) :
    (dat3 (F := Ideal) V c).flushed 2 t
      = ((cfg3.win 2).blk t).view.read (Elt Ideal)
          (RowTanh.rowTanh (M := 100000) (N := 32) (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero zeroOffsets]
  simp only [View.ld_unit_zero (S := S10000x32) zeroOffsets, View.ld_unit_zero (S := S1x32) zeroOffsets]
  funext j
  refine (payload_apply _ _ j).trans ?_
  exact block_entry (V c (Pipeline.arrRef spec3 0)) (V c (Pipeline.arrRef spec3 1)) t j

/-- An index of the result array lies in point t's block iff, on each axis, its coordinate lies in the block's range. -/
theorem mem_block (t : Fin cfg3.N) (i : S100000x32.Idx) :
    i ∈ ((cfg3.win 2).blk t).view.set
      ↔ ∀ a : Fin 2, win3_2.index t a * S10000x32.size a ≤ (i a).val
          ∧ (i a).val < win3_2.index t a * S10000x32.size a + S10000x32.size a := by
  show i ∈ ((View.whole main_v63).slice (win3_2.rect t)).set ↔ _
  rw [View.set_slice_whole, Rect.mem_set_unit]
  exact Iff.rfl

/-- The row blocks tile the array: row r lies in the block of point r / 10000, which is written back. -/
theorem cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e4, e5⟩ := index_facts t
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 32 ≤ (i 1).val ∧ (i 1).val < win3_2.index t (1 : Fin 2) * 32 + 32
    omega

/-- The result array after the region: tanh (x + b) entry by entry, b's one row added to every row of x. -/
theorem value (c : Dev nD) :
    (dat3 (F := Ideal) V c).arrAt 2 cfg3.N
      = RowTanh.rowTanh (M := 100000) (N := 32) (V c (Pipeline.arrRef spec3 0)) (V c (Pipeline.arrRef spec3 1)) :=
  (dat3 (F := Ideal) V c).arrAt_eq_of_cover 2 _ (fun t _ => flushed_eq V c t) cover

end Cert.KernelIdeal.Region3

end
-- ==== Proof.Region4.lean ====
/-
  Region 4: a row-tiled matrix product with a bias row.

  The region multiplies a 100000 × 32 matrix x by a 32 × 32 matrix w and adds a 1 × 32 bias row b to every row of the
  product. It does so in ten steps: step t takes rows 10000·t … 10000·t + 9999 of x, the whole of w and the whole of b,
  forms (rows of x) · w exactly, starting from a zero accumulator, adds b to every row, and writes the 10000 × 32 result
  into rows 10000·t … 10000·t + 9999 of the output. The narrowing of x and w before the product is the identity on the
  extended reals.

  Entry (r, c) of the product depends only on row r of x and column c of w, so the block written at step t is the
  whole-array function  (r, c) ↦ Σ_k x(r, k) · w(k, c) + b(0, c)  restricted to the block's rows. The ten blocks tile
  the rows of the output (row r lies in the block of step r / 10000), so after the last step the output array is that
  function.
-/
import proofs.«122370_j63024350101829_1_alg».proof.Proof.Gen.KernelIdeal.Frame
import proofs.«122370_j63024350101829_1_alg».proof.Proof.LibExactProduct
import Idealize.ShloMosaic.Lib.Pipeline.Value
import Idealize.ShloMosaic.Lib.ValueIdx
import Idealize.ShloMosaic.Lib.ValueLayout

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- What one step computes, entry by entry: the product of the row block and the right operand plus the bias row,
    (p, q) ↦ Σ_k x(p, k) · w(k, q) + b(0, q). -/
theorem payload_apply (x0 : Vec Ideal S10000x32 .f32) (x1 : Vec Ideal S32x32 .f32) (x2 : Vec Ideal S1x32 .f32)
    (p : Fin 10000) (q : Fin 32) :
    k4_pay1 x0 x1 x2 (ix2 p q) = (∑ k : Fin 32, x0 (ix2 p k) * x1 (ix2 k q)) + x2 (ix2 (0 : Fin 1) q) := by
  unfold k4_pay1
  refine (addf_apply _ _ (ix2 p q)).trans ?_
  refine congr (congrArg HAdd.hAdd ?_) ?_
  · rw [shapeCast_self]
    exact PlainMatmul.apply_zero (M := 10000) (K := 32) (N := 32) (φ₁ := .bf16) (φ₂ := .bf16)
      (truncf .bf16 x0 bitsLt_bf16_f32) (truncf .bf16 x1 bitsLt_bf16_f32) p q
  · rw [shapeCast_self]
    exact broadcastTo_1b_ab_apply x2 broadcasts_S1x32_S10000x32 p q

/-- One step's result at (p, q) is the whole-array function at an index i of the output, as soon as row p of the
    step's row block is row i₀ of the left operand, column q of the staged right operand is column i₁ of the right
    operand, and entry q of the staged bias row is entry i₁ of the bias row. -/
theorem payload_eq_proj (x0 : Vec Ideal S10000x32 .f32) (x1 : Vec Ideal S32x32 .f32) (x2 : Vec Ideal S1x32 .f32)
    (A0 : S100000x32.Idx → EReal) (A1 : S32x32.Idx → EReal) (A2 : S1x32.Idx → EReal)
    (i : S100000x32.Idx) (p : Fin 10000) (q : Fin 32)
    (h0 : ∀ k : Fin 32, x0 (ix2 p k) = A0 (ix2 (i 0) k))
    (h1 : ∀ k : Fin 32, x1 (ix2 k q) = A1 (ix2 k (i 1)))
    (h2 : x2 (ix2 (0 : Fin 1) q) = A2 (ix2 (0 : Fin 1) (i 1))) :
    k4_pay1 x0 x1 x2 (ix2 p q) = ExactProduct.proj (M := 100000) (K := 32) (N := 32) A0 A1 A2 i := by
  rw [payload_apply, h2]
  show _ = (∑ k : Fin 32, A0 (ix2 (i 0) k) * A1 (ix2 k (i 1))) + A2 (ix2 (0 : Fin 1) (i 1))
  refine congrArg (· + A2 (ix2 (0 : Fin 1) (i 1))) (Finset.sum_congr rfl fun k _ => ?_)
  rw [h0, h1]

/-- The block indices over the ten steps: the left operand's and the output's row block is the step's number, their
    column block is 0, and the right operand and the bias row are always at block (0, 0). -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of step t's block of the left operand is the row of the left operand that entry (p, q) of step t's block of
    the output sits in. -/
theorem left_rows (c : Dev nD) (t : Fin cfg4.N) (p : Fin 10000) (q : Fin 32) (k : Fin 32) :
    iblk4 V c 0 t (ix2 p k)
      = V c (Pipeline.arrRef spec4 0) (ix2 ((((cfg4.win 3).blk t).view.emb (ix2 p q)) 0) k) := by
  obtain ⟨e00, e01, -, -, -, -, e30, e31⟩ := block_indices t
  have hk : k.val < 32 := k.isLt
  show V c (Pipeline.arrRef spec4 0) (((cfg4.win 0).blk t).view.emb (ix2 p k)) = V c (Pipeline.arrRef spec4 0) _
  refine congrArg (V c (Pipeline.arrRef spec4 0)) (funext fun a => Fin.ext ?_)
  match a with
  | ⟨0, _⟩ =>
    show win4_0.index t (0 : Fin 2) * 10000 + 1 * p.val = win4_3.index t (0 : Fin 2) * 10000 + 1 * p.val
    omega
  | ⟨1, _⟩ =>
    show win4_0.index t (1 : Fin 2) * 32 + 1 * k.val = k.val
    omega

/-- Column q of the staged right operand is the column of the right operand that entry (p, q) of step t's block of the
    output sits in. -/
theorem right_cols (c : Dev nD) (t : Fin cfg4.N) (p : Fin 10000) (q : Fin 32) (k : Fin 32) :
    iblk4 V c 1 t (ix2 k q)
      = V c (Pipeline.arrRef spec4 1) (ix2 k ((((cfg4.win 3).blk t).view.emb (ix2 p q)) 1)) := by
  obtain ⟨-, -, e10, e11, -, -, e30, e31⟩ := block_indices t
  have hk : k.val < 32 := k.isLt
  show V c (Pipeline.arrRef spec4 1) (((cfg4.win 1).blk t).view.emb (ix2 k q)) = V c (Pipeline.arrRef spec4 1) _
  refine congrArg (V c (Pipeline.arrRef spec4 1)) (funext fun a => Fin.ext ?_)
  match a with
  | ⟨0, _⟩ =>
    show win4_1.index t (0 : Fin 2) * 32 + 1 * k.val = k.val
    omega
  | ⟨1, _⟩ =>
    show win4_1.index t (1 : Fin 2) * 32 + 1 * q.val = win4_3.index t (1 : Fin 2) * 32 + 1 * q.val
    omega

/-- Entry q of the staged bias row is the entry of the bias row over the column that entry (p, q) of step t's block of
    the output sits in. -/
theorem bias_entry (c : Dev nD) (t : Fin cfg4.N) (p : Fin 10000) (q : Fin 32) :
    iblk4 V c 2 t (ix2 (0 : Fin 1) q)
      = V c (Pipeline.arrRef spec4 2) (ix2 (0 : Fin 1) ((((cfg4.win 3).blk t).view.emb (ix2 p q)) 1)) := by
  obtain ⟨-, -, -, -, e20, e21, e30, e31⟩ := block_indices t
  show V c (Pipeline.arrRef spec4 2) (((cfg4.win 2).blk t).view.emb (ix2 (0 : Fin 1) q)) = V c (Pipeline.arrRef spec4 2) _
  refine congrArg (V c (Pipeline.arrRef spec4 2)) (funext fun a => Fin.ext ?_)
  match a with
  | ⟨0, _⟩ =>
    show win4_2.index t (0 : Fin 2) * 1 + 1 * 0 = 0
    omega
  | ⟨1, _⟩ =>
    show win4_2.index t (1 : Fin 2) * 32 + 1 * q.val = win4_3.index t (1 : Fin 2) * 32 + 1 * q.val
    omega

/-- What step t writes back is the whole-array function restricted to the step's block of the output. -/
theorem flushed_eq (c : Dev nD) (t : Fin cfg4.N) :
    (dat4 (F := Ideal) V c).flushed 3 t = ((cfg4.win 3).blk t).view.read (Elt Ideal)
      (ExactProduct.proj (M := 100000) (K := 32) (N := 32) (V c (Pipeline.arrRef spec4 0)) (V c (Pipeline.arrRef spec4 1))
        (V c (Pipeline.arrRef spec4 2))) := by
  show (cfg4.win 3).cut (grid4.coords t) ((dat4 (F := Ideal) V c).after 3 t) = _
  rw [after4_3]
  unfold out4_3
  rw [View.canon_unit_zero zero_offsets]
  simp only [View.ld_unit_zero (S := S10000x32) zero_offsets, View.ld_unit_zero (S := S32x32) zero_offsets,
    View.ld_unit_zero (S := S1x32) zero_offsets]
  funext j
  obtain ⟨p, q, rfl⟩ : ∃ (p : Fin 10000) (q : Fin 32), j = ix2 p q := ⟨j 0, j 1, eq_ix2 j⟩
  exact payload_eq_proj (iblk4 V c 0 t) (iblk4 V c 1 t) (iblk4 V c 2 t) (V c (Pipeline.arrRef spec4 0))
    (V c (Pipeline.arrRef spec4 1)) (V c (Pipeline.arrRef spec4 2)) (((cfg4.win 3).blk t).view.emb (ix2 p q)) p q
    (fun k => left_rows V c t p q k) (fun k => right_cols V c t p q k) (bias_entry V c t p q)

/-- An index of the output lies in step t's block iff, on each axis, its coordinate lies in the block's range. -/
theorem mem_block (t : Fin cfg4.N) (i : S100000x32.Idx) :
    i ∈ ((cfg4.win 3).blk t).view.set ↔ ∀ a : Fin 2, win4_3.index t a * S10000x32.size a ≤ (i a).val
      ∧ (i a).val < win4_3.index t a * S10000x32.size a + S10000x32.size a := by
  show i ∈ ((View.whole main_v66).slice (win4_3.rect t)).set ↔ _
  rw [View.set_slice_whole, Rect.mem_set_unit]
  exact Iff.rfl

/-- The ten blocks tile the output: row r lies in the block of step r / 10000, and every step writes its block back. -/
theorem cover (i : S100000x32.Idx) :
    ∃ t : Fin cfg4.N, (cfg4.win 3).flush t = true ∧ i ∈ ((cfg4.win 3).blk t).view.set := by
  have hN : cfg4.N = 10 := N_4
  have hi0 : (i 0).val < 100000 := (i 0).isLt
  have hi1 : (i 1).val < 32 := (i 1).isLt
  have hlt : (i 0).val / 10000 < cfg4.N := by rw [hN]; omega
  refine ⟨⟨(i 0).val / 10000, hlt⟩, flush4_3 _, ?_⟩
  rw [mem_block]
  obtain ⟨-, -, -, -, -, -, e30, e31⟩ := block_indices ⟨(i 0).val / 10000, hlt⟩
  have e30' : win4_3.index ⟨(i 0).val / 10000, hlt⟩ (0 : Fin 2) = (i 0).val / 10000 := e30
  intro a
  match a with
  | ⟨0, _⟩ =>
    show win4_3.index ⟨(i 0).val / 10000, hlt⟩ (0 : Fin 2) * 10000 ≤ (i 0).val
      ∧ (i 0).val < win4_3.index ⟨(i 0).val / 10000, hlt⟩ (0 : Fin 2) * 10000 + 10000
    omega
  | ⟨1, _⟩ =>
    show win4_3.index ⟨(i 0).val / 10000, hlt⟩ (1 : Fin 2) * 32 ≤ (i 1).val
      ∧ (i 1).val < win4_3.index ⟨(i 0).val / 10000, hlt⟩ (1 : Fin 2) * 32 + 32
    omega

/-- After the last step the output array is the product plus the bias row, as one function of the three arrays the
    region found on entry. -/
theorem value (V : (c : Dev nD) → (b : Ref sig .tc) → Buf (Elt Ideal) ((c : Thread nD τ).loc b)) (c : Dev nD) :
    (dat4 (F := Ideal) V c).arrAt 3 cfg4.N
      = ExactProduct.proj (M := 100000) (K := 32) (N := 32) (V c (Pipeline.arrRef spec4 0)) (V c (Pipeline.arrRef spec4 1))
          (V c (Pipeline.arrRef spec4 2)) :=
  (dat4 (F := Ideal) V c).arrAt_eq_of_cover 3 _ (fun t _ => flushed_eq V c t) cover

end Cert.KernelIdeal.Region4

end
-- ==== Proof.Region5.lean ====
/-
  The third bias-and-tanh step on the 100000 × 32 activations: the result array after the region is, entry by entry,
  tanh (x(r, c) + b(0, c)) of the operand x and the 1 × 32 bias row b as the region finds them.

  Why: the grid has 10 points. Point t stages rows 10000·t … 10000·t + 9999 of x together with the whole bias row,
  computes tanh (block + bias row copied into every row of the block) and writes the result back to the same rows of
  the result array. The entry at row p, column q of that block therefore depends only on x(10000·t + p, q) and b(0, q):
  the block is the function tanh (x + b) restricted to its rows. The ten row blocks tile the 100000 rows (row r lies in
  the block of point r / 10000, and every point writes back), so the array ends holding that one function everywhere.
-/
import proofs.«122370_j63024350101829_1_alg».proof.Proof.Gen.KernelIdeal.Frame
import proofs.«122370_j63024350101829_1_alg».proof.Proof.LibRowTanh
import Idealize.ShloMosaic.Lib.Pipeline.Value
import Idealize.ShloMosaic.Lib.ValueLayout

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

/-- The offsets (0, 0), as the constant function 0. -/
theorem zeroOffsets : (![0, 0] : Fin 2 → Nat) = fun _ => 0 := funext fun a => by fin_cases a <;> rfl

/-- The body's stored value at row p, column q of a block: tanh of the block's entry plus the bias row's entry in
    column q. The two casts are to the same shape, and the broadcast copies the one row into every row. -/
theorem payload_at (x0 : Vec Ideal S10000x32 .f32) (x1 : Vec Ideal S1x32 .f32) (p : Fin 10000) (q : Fin 32) :
    k5_pay1 x0 x1 (ix2 p q) = Ideal.tanh (x0 (ix2 p q) + x1 (ix2 (0 : Fin 1) q)) := by
  unfold k5_pay1
  show Ideal.tanh (shapeCast S10000x32 x0 _ (ix2 p q) + broadcastTo S10000x32 (shapeCast S1x32 x1 _) _ (ix2 p q)) = _
  rw [shapeCast_self, shapeCast_self, broadcastTo_1b_ab_apply]

/-- The same at any index of the block. -/
theorem payload_apply (x0 : Vec Ideal S10000x32 .f32) (x1 : Vec Ideal S1x32 .f32) (j : S10000x32.Idx) :
    k5_pay1 x0 x1 j = Ideal.tanh (x0 j + x1 (ix2 (0 : Fin 1) (j 1))) := by
  obtain ⟨p, q, rfl⟩ : ∃ (p : Fin 10000) (q : Fin 32), j = ix2 p q := ⟨j 0, j 1, eq_ix2 j⟩
  exact payload_at x0 x1 p q

/-- The block indices over the grid: the operand's and the result's blocks are the same rows, block t of 10; the bias
    row's block is always the whole row. -/
theorem index_facts : ∀ t : Fin cfg5.N,
    win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- One entry of a block, for any two arrays A (100000 × 32) and B (1 × 32): tanh of A read where the operand's block
    sits plus B read where the bias row's block sits is tanh (A + B's row) read where the result's block sits, since the
    operand's and the result's blocks are the same rows and the bias row's block is the whole row. -/
theorem block_entry (A : S100000x32.Idx → EReal) (B : S1x32.Idx → EReal) (t : Fin cfg5.N) (j : S10000x32.Idx) :
    Ideal.tanh (A (((cfg5.win 0).blk t).view.emb j) + B (((cfg5.win 1).blk t).view.emb (ix2 (0 : Fin 1) (j 1))))
      = RowTanh.rowTanh (M := 100000) (N := 32) A B (((cfg5.win 2).blk t).view.emb j) := by
  obtain ⟨e0, e1, e2, e3, e4, e5⟩ := index_facts t
  show _ = Ideal.tanh (A (((cfg5.win 2).blk t).view.emb j) + B (ix2 (0 : Fin 1) ((((cfg5.win 2).blk t).view.emb j) 1)))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 32 + 1 * (j 1).val = win5_2.index t (1 : Fin 2) * 32 + 1 * (j 1).val; omega
  have h1 : ((cfg5.win 1).blk t).view.emb (ix2 (0 : Fin 1) (j 1)) = ix2 (0 : Fin 1) ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 32 + 1 * (j 1).val = win5_2.index t (1 : Fin 2) * 32 + 1 * (j 1).val; omega
  rw [h0, h1]
  rfl

variable (V : (c : Dev nD) → (b : Ref sig .tc) → Buf (Elt Ideal) ((c : Thread nD τ).loc b))

/-- What point t writes back is the rows of block t of tanh (x + b), x and b the arrays as the region finds them. -/
theorem flushed_eq (c : Dev nD) (t : Fin cfg5.N) :
    (dat5 (F := Ideal) V c).flushed 2 t
      = ((cfg5.win 2).blk t).view.read (Elt Ideal)
          (RowTanh.rowTanh (M := 100000) (N := 32) (V c (Pipeline.arrRef spec5 0)) (V c (Pipeline.arrRef spec5 1))) := by
  show (cfg5.win 2).cut (grid5.coords t) ((dat5 (F := Ideal) V c).after 2 t) = _
  rw [after5_2]
  unfold out5_2
  rw [View.canon_unit_zero zeroOffsets]
  simp only [View.ld_unit_zero (S := S10000x32) zeroOffsets, View.ld_unit_zero (S := S1x32) zeroOffsets]
  funext j
  refine (payload_apply _ _ j).trans ?_
  exact block_entry (V c (Pipeline.arrRef spec5 0)) (V c (Pipeline.arrRef spec5 1)) t j

/-- An index of the result array lies in point t's block iff, on each axis, its coordinate lies in the block's range. -/
theorem mem_block (t : Fin cfg5.N) (i : S100000x32.Idx) :
    i ∈ ((cfg5.win 2).blk t).view.set
      ↔ ∀ a : Fin 2, win5_2.index t a * S10000x32.size a ≤ (i a).val
          ∧ (i a).val < win5_2.index t a * S10000x32.size a + S10000x32.size a := by
  show i ∈ ((View.whole main_v80).slice (win5_2.rect t)).set ↔ _
  rw [View.set_slice_whole, Rect.mem_set_unit]
  exact Iff.rfl

/-- The row blocks tile the array: row r lies in the block of point r / 10000, which is written back. -/
theorem cover (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨-, -, -, -, e4, e5⟩ := index_facts t
  refine ⟨t, flush5_2 t, ?_⟩
  rw [mem_block]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 32 ≤ (i 1).val ∧ (i 1).val < win5_2.index t (1 : Fin 2) * 32 + 32
    omega

/-- The result array after the region: tanh (x + b) entry by entry, b's one row added to every row of x. -/
theorem value (c : Dev nD) :
    (dat5 (F := Ideal) V c).arrAt 2 cfg5.N
      = RowTanh.rowTanh (M := 100000) (N := 32) (V c (Pipeline.arrRef spec5 0)) (V c (Pipeline.arrRef spec5 1)) :=
  (dat5 (F := Ideal) V c).arrAt_eq_of_cover 2 _ (fun t _ => flushed_eq V c t) cover

end Cert.KernelIdeal.Region5

end
-- ==== Proof.Region6.lean ====
/-
  The last projection of the network: a dense layer  y = x · w + b  on 4096 rows, computed in one step.
  The grid has a single point. At that point the whole 4096 × 32 left operand, the whole 32 × 6 right operand and
  the whole 1 × 6 bias row are staged; the step forms the exact product into a zero accumulator (the change of float
  format on the way into the matrix unit is the identity on the extended reals), adds the bias row to every row, and
  stores the 4096 × 6 result into the output's one block, which is written back at that point.
  Why the array after the run is the function  (r, c) ↦ Σ_k x(r, k) · w(k, c) + b(0, c)  of the arrays the region
  finds: the output's blocks tile its rows (here one block holds all of them), every input block is its whole array
  (block index 0 on every axis, so an element of the block sits at the same coordinates in the array), hence what the
  point writes back is that function restricted to the point's block; every index lies in that block, so the array
  ends holding the function everywhere.
-/
import proofs.«122370_j63024350101829_1_alg».proof.Proof.Gen.KernelIdeal.Frame
import proofs.«122370_j63024350101829_1_alg».proof.Proof.LibExactProduct
import Idealize.ShloMosaic.Lib.Pipeline.Value
import Idealize.ShloMosaic.Lib.ValueIdx
import Idealize.ShloMosaic.Lib.ValueLayout

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as a constant function. -/
theorem zero_offsets : (![0, 0] : Fin 2 → Nat) = fun _ => 0 := funext fun a => by fin_cases a <;> rfl

/-- The step's contraction is the plain one: left axis 1 against right axis 0, no batch axis. -/
theorem dims_plain : dot_S4096x32_S32x6_S4096x6_1_0_0_1_n_n = DotDims.plain 4096 32 6 := rfl

/-- What the step stores, entry by entry: at row p and column q the exact inner product of row p of the left operand
    with column q of the right operand, plus entry q of the bias row. -/
theorem payload_apply (x0 : Vec Ideal S4096x32 .f32) (x1 : Vec Ideal S32x6 .f32) (x2 : Vec Ideal S1x6 .f32)
    (p : Fin 4096) (q : Fin 6) :
    k6_pay1 (F := Ideal) x0 x1 x2 (ix2 p q) = (∑ k : Fin 32, x0 (ix2 p k) * x1 (ix2 k q)) + x2 (ix2 (0 : Fin 1) q) := by
  unfold k6_pay1
  refine (addf_apply _ _ (ix2 p q)).trans ?_
  refine congrArg₂ (· + ·) ?_ ?_
  · refine (PlainMatmul.apply_zero (M := 4096) (K := 32) (N := 6) _ _ p q).trans ?_
    refine Finset.sum_congr rfl fun k _ => ?_
    exact congrArg (· * x1 (ix2 k q)) (congrFun (shapeCast_self x0 shapeCasts_S4096x32_S4096x32) (ix2 p k))
  · refine (broadcastTo_1b_ab_apply (a := 4096) (b := 6) _ broadcasts_S1x6_S4096x6 p q).trans ?_
    exact congrFun (shapeCast_self x2 shapeCasts_S1x6_S1x6) (ix2 (0 : Fin 1) q)

/-- The whole stored block is the projection of the three loaded blocks. -/
theorem payload_eq (x0 : Vec Ideal S4096x32 .f32) (x1 : Vec Ideal S32x6 .f32) (x2 : Vec Ideal S1x6 .f32) :
    k6_pay1 (F := Ideal) x0 x1 x2 = ExactProduct.proj (M := 4096) (K := 32) (N := 6) x0 x1 x2 := by
  funext j
  obtain ⟨p, q, rfl⟩ : ∃ (p : Fin 4096) (q : Fin 6), j = ix2 p q := ⟨j 0, j 1, eq_ix2 j⟩
  exact payload_apply x0 x1 x2 p q

/-- The index maps at the one grid point: every window stages block 0 on both axes. -/
theorem block_zero : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

variable (V : (c : Dev nD) → (b : Ref sig .tc) → Buf (Elt Ideal) ((c : Thread nD τ).loc b))

/-- An element of the left operand's block at the point sits at the same coordinates in its array. -/
theorem emb_left (t : Fin cfg6.N) (y : S4096x32.Idx) : ((cfg6.win 0).blk t).view.emb y = y := by
  obtain ⟨e0, e1, -⟩ := block_zero t
  funext a; apply Fin.ext
  match a with
  | ⟨0, _⟩ => show win6_0.index t (0 : Fin 2) * 4096 + 1 * (y 0).val = (y 0).val; rw [e0]; omega
  | ⟨1, _⟩ => show win6_0.index t (1 : Fin 2) * 32 + 1 * (y 1).val = (y 1).val; rw [e1]; omega

/-- An element of the right operand's block at the point sits at the same coordinates in its array. -/
theorem emb_right (t : Fin cfg6.N) (y : S32x6.Idx) : ((cfg6.win 1).blk t).view.emb y = y := by
  obtain ⟨-, -, e0, e1, -⟩ := block_zero t
  funext a; apply Fin.ext
  match a with
  | ⟨0, _⟩ => show win6_1.index t (0 : Fin 2) * 32 + 1 * (y 0).val = (y 0).val; rw [e0]; omega
  | ⟨1, _⟩ => show win6_1.index t (1 : Fin 2) * 6 + 1 * (y 1).val = (y 1).val; rw [e1]; omega

/-- An element of the bias row's block at the point sits at the same coordinates in its array. -/
theorem emb_bias (t : Fin cfg6.N) (y : S1x6.Idx) : ((cfg6.win 2).blk t).view.emb y = y := by
  obtain ⟨-, -, -, -, e0, e1, -⟩ := block_zero t
  funext a; apply Fin.ext
  match a with
  | ⟨0, _⟩ => show win6_2.index t (0 : Fin 2) * 1 + 1 * (y 0).val = (y 0).val; rw [e0]; omega
  | ⟨1, _⟩ => show win6_2.index t (1 : Fin 2) * 6 + 1 * (y 1).val = (y 1).val; rw [e1]; omega

/-- An element of the result's block at the point sits at the same coordinates in its array. -/
theorem emb_out (t : Fin cfg6.N) (y : S4096x6.Idx) : ((cfg6.win 3).blk t).view.emb y = y := by
  obtain ⟨-, -, -, -, -, -, e0, e1⟩ := block_zero t
  funext a; apply Fin.ext
  match a with
  | ⟨0, _⟩ => show win6_3.index t (0 : Fin 2) * 4096 + 1 * (y 0).val = (y 0).val; rw [e0]; omega
  | ⟨1, _⟩ => show win6_3.index t (1 : Fin 2) * 6 + 1 * (y 1).val = (y 1).val; rw [e1]; omega

/-- The left operand's block at the point is its whole array. -/
theorem left_block (c : Dev nD) (t : Fin cfg6.N) :
    (iblk6 (F := Ideal) V c 0 t : Vec Ideal S4096x32 .f32) = V c (Pipeline.arrRef spec6 0) := by
  funext y
  show V c (Pipeline.arrRef spec6 0) (((cfg6.win 0).blk t).view.emb y) = V c (Pipeline.arrRef spec6 0) y
  exact congrArg (V c (Pipeline.arrRef spec6 0)) (emb_left t y)

/-- The right operand's block at the point is its whole array. -/
theorem right_block (c : Dev nD) (t : Fin cfg6.N) :
    (iblk6 (F := Ideal) V c 1 t : Vec Ideal S32x6 .f32) = V c (Pipeline.arrRef spec6 1) := by
  funext y
  show V c (Pipeline.arrRef spec6 1) (((cfg6.win 1).blk t).view.emb y) = V c (Pipeline.arrRef spec6 1) y
  exact congrArg (V c (Pipeline.arrRef spec6 1)) (emb_right t y)

/-- The bias row's block at the point is its whole array. -/
theorem bias_block (c : Dev nD) (t : Fin cfg6.N) :
    (iblk6 (F := Ideal) V c 2 t : Vec Ideal S1x6 .f32) = V c (Pipeline.arrRef spec6 2) := by
  funext y
  show V c (Pipeline.arrRef spec6 2) (((cfg6.win 2).blk t).view.emb y) = V c (Pipeline.arrRef spec6 2) y
  exact congrArg (V c (Pipeline.arrRef spec6 2)) (emb_bias t y)

/-- The stored block at an index, when each loaded block is its whole array and the index is given by another name:
    the projection of the arrays at that index. -/
theorem stored_at (x0 : Vec Ideal S4096x32 .f32) (x1 : Vec Ideal S32x6 .f32) (x2 : Vec Ideal S1x6 .f32)
    (a0 : Vec Ideal S4096x32 .f32) (a1 : Vec Ideal S32x6 .f32) (a2 : Vec Ideal S1x6 .f32)
    (h0 : x0 = a0) (h1 : x1 = a1) (h2 : x2 = a2) (j i : S4096x6.Idx) (hji : j = i) :
    k6_pay1 (F := Ideal) x0 x1 x2 j = ExactProduct.proj (M := 4096) (K := 32) (N := 6) a0 a1 a2 i := by
  subst h0 h1 h2 hji
  exact congrFun (payload_eq x0 x1 x2) j

/-- What the point writes back is the projection of the three arrays, restricted to the point's block: the one
    whole-buffer store leaves the stored block, the loads read whole blocks, the blocks are the whole arrays, and an
    element of the result's block sits at the same coordinates in the result array. -/
theorem flushed_eq (c : Dev nD) (t : Fin cfg6.N) :
    (dat6 (F := Ideal) V c).flushed 3 t
      = ((cfg6.win 3).blk t).view.read (Elt Ideal)
          (ExactProduct.proj (M := 4096) (K := 32) (N := 6) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zero_offsets]
  simp only [View.ld_unit_zero (S := S4096x32) zero_offsets, View.ld_unit_zero (S := S32x6) zero_offsets,
    View.ld_unit_zero (S := S1x6) zero_offsets]
  funext j
  exact stored_at (iblk6 V c 0 t) (iblk6 V c 1 t) (iblk6 V c 2 t)
    (V c (Pipeline.arrRef spec6 0)) (V c (Pipeline.arrRef spec6 1)) (V c (Pipeline.arrRef spec6 2))
    (left_block V c t) (right_block V c t) (bias_block V c t) j (((cfg6.win 3).blk t).view.emb j) (emb_out t j).symm

/-- An index of the result array is in the point's block iff each coordinate is in the block's range on its axis. -/
theorem mem_block (t : Fin cfg6.N) (i : S4096x6.Idx) :
    i ∈ ((cfg6.win 3).blk t).view.set ↔ ∀ a : Fin 2, win6_3.index t a * S4096x6.size a ≤ (i a).val ∧ (i a).val < win6_3.index t a * S4096x6.size a + S4096x6.size a := by
  show i ∈ ((View.whole main_v93).slice (win6_3.rect t)).set ↔ _
  rw [View.set_slice_whole, Rect.mem_set_unit]
  exact Iff.rfl

/-- Every index of the result array lies in the one point's block, which is written back. -/
theorem cover (i : S4096x6.Idx) : ∃ t : Fin cfg6.N, (cfg6.win 3).flush t = true ∧ i ∈ ((cfg6.win 3).blk t).view.set := by
  refine ⟨t6_0, flush6_3 t6_0, ?_⟩
  obtain ⟨-, -, -, -, -, -, e0, e1⟩ := block_zero t6_0
  have h0 : (i 0).val < 4096 := (i 0).isLt
  have h1 : (i 1).val < 6 := (i 1).isLt
  rw [mem_block]
  intro a
  match a with
  | ⟨0, _⟩ => show win6_3.index t6_0 (0 : Fin 2) * 4096 ≤ (i 0).val ∧ (i 0).val < win6_3.index t6_0 (0 : Fin 2) * 4096 + 4096; rw [e0]; omega
  | ⟨1, _⟩ => show win6_3.index t6_0 (1 : Fin 2) * 6 ≤ (i 1).val ∧ (i 1).val < win6_3.index t6_0 (1 : Fin 2) * 6 + 6; rw [e1]; omega

/-- The result array after the region is the projection of the three arrays the region finds. -/
theorem value (V : (c : Dev nD) → (b : Ref sig .tc) → Buf (Elt Ideal) ((c : Thread nD τ).loc b)) (c : Dev nD) :
    (dat6 (F := Ideal) V c).arrAt 3 cfg6.N
      = ExactProduct.proj (M := 4096) (K := 32) (N := 6) (V c (Pipeline.arrRef spec6 0)) (V c (Pipeline.arrRef spec6 1)) (V c (Pipeline.arrRef spec6 2)) :=
  (dat6 (F := Ideal) V c).arrAt_eq_of_cover 3 _ (fun t _ => flushed_eq V c t) cover

end Cert.KernelIdeal.Region6

end
-- ==== Proof.Boundaries.lean ====
/-
  The idealized kernel program's result, read back through the fold of boundary contents, is the reference's closed
  function of the arguments. Boundary by boundary, on the extended reals: a matmul region leaves the exact product plus
  its bias row, which in the three convolution layers is a row of zeros (x + 0 = x); the stretch after it gathers,
  scales and sums the product's rows over the edges; a bias-and-tanh region leaves tanh of those sums plus the layer's
  bias row: together one layer of the reference. After the third layer a stretch pools the node rows by graph, and the
  last region leaves the product of the pooled rows and the classifier weights plus the classifier bias row. Each
  region's value is its own module's theorem: the array a region leaves is a function of the arrays it finds.
-/
import proofs.«122370_j63024350101829_1_alg».proof.Proof.StretchLayers
import proofs.«122370_j63024350101829_1_alg».proof.Proof.Region0
import proofs.«122370_j63024350101829_1_alg».proof.Proof.Region1
import proofs.«122370_j63024350101829_1_alg».proof.Proof.Region2
import proofs.«122370_j63024350101829_1_alg».proof.Proof.Region3
import proofs.«122370_j63024350101829_1_alg».proof.Proof.Region4
import proofs.«122370_j63024350101829_1_alg».proof.Proof.Region5
import proofs.«122370_j63024350101829_1_alg».proof.Proof.Region6

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The row of zeros is zero at every entry: the zero word denotes 0. -/
theorem zeroRow32_apply (j : S1x32.Idx) : (zeroRow32 (F := Ideal) : S1x32.Idx → EReal) j = 0 := Ideal.ofBits_zero_f32

set_option maxHeartbeats 1000000 in
/-- The first region leaves the exact product of the node features and the first weights: its bias row is zero. -/
theorem W2_hw : W2 (F := Ideal) m ρ c (Proc.devRef .tc main_v32) = ExactProduct.mm (M := 100000) (K := 6) (N := 32) (m ((c : Thread nD τ).loc main_arg0)) (m ((c : Thread nD τ).loc main_arg3)) :=
  ((W2_arr m ρ c 3).trans (Region0.value (V1 m ρ) c)).trans
    ((RowTanh.proj_zeroRow _ _ _ (fun j => (congrFun (W1_zero m ρ c) j).trans (zeroRow32_apply j))).trans (congrArg₂ ExactProduct.mm (W1_arg0 m ρ c) (W1_arg3 m ρ c)))

set_option maxHeartbeats 1000000 in
/-- The second region leaves the first layer's rows. -/
theorem W4_h1 : W4 (F := Ideal) m ρ c (Proc.devRef .tc main_v46) = (Cert.ReferenceIdeal.Spec.layer (K := 6) (m ((c : Thread nD τ).loc main_arg1)) (m ((c : Thread nD τ).loc main_arg0)) (m ((c : Thread nD τ).loc main_arg3)) (m ((c : Thread nD τ).loc main_arg4))) :=
  ((W4_arr m ρ c 2).trans (Region1.value (V3 m ρ) c)).trans (by
    show RowTanh.rowTanh (M := 100000) (N := 32) (W3 (F := Ideal) m ρ c (Proc.devRef .tc main_v44)) (W3 (F := Ideal) m ρ c (Proc.devRef .tc main_v45)) = _
    rw [W3_agg m ρ c, W3_bias m ρ c, W2_hw m ρ c]
    rfl)

set_option maxHeartbeats 1000000 in
/-- The third region leaves the exact product of the first layer's rows and the second weights. -/
theorem W6_hw : W6 (F := Ideal) m ρ c (Proc.devRef .tc main_v49) = ExactProduct.mm (M := 100000) (K := 32) (N := 32) (Cert.ReferenceIdeal.Spec.layer (K := 6) (m ((c : Thread nD τ).loc main_arg1)) (m ((c : Thread nD τ).loc main_arg0)) (m ((c : Thread nD τ).loc main_arg3)) (m ((c : Thread nD τ).loc main_arg4))) (m ((c : Thread nD τ).loc main_arg5)) :=
  ((W6_arr m ρ c 3).trans (Region2.value (V5 m ρ) c)).trans
    ((RowTanh.proj_zeroRow _ _ _ (fun j => (congrFun (W5_zero m ρ c) j).trans (zeroRow32_apply j))).trans (congrArg₂ ExactProduct.mm ((W5_h1 m ρ c).trans (W4_h1 m ρ c)) (W5_arg5 m ρ c)))

set_option maxHeartbeats 1000000 in
/-- The fourth region leaves the second layer's rows. -/
theorem W8_h2 : W8 (F := Ideal) m ρ c (Proc.devRef .tc main_v63) = (Cert.ReferenceIdeal.Spec.layer (K := 32) (m ((c : Thread nD τ).loc main_arg1)) (Cert.ReferenceIdeal.Spec.layer (K := 6) (m ((c : Thread nD τ).loc main_arg1)) (m ((c : Thread nD τ).loc main_arg0)) (m ((c : Thread nD τ).loc main_arg3)) (m ((c : Thread nD τ).loc main_arg4))) (m ((c : Thread nD τ).loc main_arg5)) (m ((c : Thread nD τ).loc main_arg6))) :=
  ((W8_arr m ρ c 2).trans (Region3.value (V7 m ρ) c)).trans (by
    show RowTanh.rowTanh (M := 100000) (N := 32) (W7 (F := Ideal) m ρ c (Proc.devRef .tc main_v61)) (W7 (F := Ideal) m ρ c (Proc.devRef .tc main_v62)) = _
    rw [W7_agg m ρ c, W7_bias m ρ c, W6_hw m ρ c]
    rfl)

set_option maxHeartbeats 1000000 in
/-- The fifth region leaves the exact product of the second layer's rows and the third weights. -/
theorem W10_hw : W10 (F := Ideal) m ρ c (Proc.devRef .tc main_v66) = ExactProduct.mm (M := 100000) (K := 32) (N := 32) (Cert.ReferenceIdeal.Spec.layer (K := 32) (m ((c : Thread nD τ).loc main_arg1)) (Cert.ReferenceIdeal.Spec.layer (K := 6) (m ((c : Thread nD τ).loc main_arg1)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) :=
  ((W10_arr m ρ c 3).trans (Region4.value (V9 m ρ) c)).trans
    ((RowTanh.proj_zeroRow _ _ _ (fun j => (congrFun (W9_zero m ρ c) j).trans (zeroRow32_apply j))).trans (congrArg₂ ExactProduct.mm ((W9_h2 m ρ c).trans (W8_h2 m ρ c)) (W9_arg7 m ρ c)))

set_option maxHeartbeats 1000000 in
/-- The sixth region leaves the third layer's rows. -/
theorem W12_h3 : W12 (F := Ideal) m ρ c (Proc.devRef .tc main_v80) = (Cert.ReferenceIdeal.Spec.layer (K := 32) (m ((c : Thread nD τ).loc main_arg1)) (Cert.ReferenceIdeal.Spec.layer (K := 32) (m ((c : Thread nD τ).loc main_arg1)) (Cert.ReferenceIdeal.Spec.layer (K := 6) (m ((c : Thread nD τ).loc main_arg1)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8))) :=
  ((W12_arr m ρ c 2).trans (Region5.value (V11 m ρ) c)).trans (by
    show RowTanh.rowTanh (M := 100000) (N := 32) (W11 (F := Ideal) m ρ c (Proc.devRef .tc main_v78)) (W11 (F := Ideal) m ρ c (Proc.devRef .tc main_v79)) = _
    rw [W11_agg m ρ c, W11_bias m ρ c, W10_hw m ρ c]
    rfl)

set_option maxHeartbeats 1000000 in
/-- The last region leaves the product of the pooled rows and the classifier weights plus the classifier bias row: the reference's closed function of the arguments. -/
theorem W14_out : W14 (F := Ideal) m ρ c (Proc.devRef .tc main_v93) = Cert.ReferenceIdeal.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((W14_arr m ρ c 3).trans (Region6.value (V13 m ρ) c)).trans (by
    show ExactProduct.proj (M := 4096) (K := 32) (N := 6) (W13 (F := Ideal) m ρ c (Proc.devRef .tc main_v91)) (W13 (F := Ideal) m ρ c (Proc.devRef .tc main_arg9)) (W13 (F := Ideal) m ρ c (Proc.devRef .tc main_v92)) = _
    rw [W13_pool m ρ c, W13_bias m ρ c, W13_arg9 m ρ c, W12_h3 m ρ c]
    rfl)

end Cert.KernelIdeal.Whole

end
-- ==== Proof.lean ====
/-
  The certificate of a three-layer graph-convolution network with mean pooling and a linear classifier.
  The kernel program computes each layer's node-local product h · w and each layer's tanh(· + bias) in kernel regions,
  tiled over blocks of 10000 node rows, and leaves the edge work (gather the product's rows at the source nodes, scale by
  the edge normalisation, sum into the target nodes) and the pooling to host operations; its last region is the
  classifier's product plus its bias row. The reference program does every step on the host. On the extended reals the
  two agree entry by entry: a product accumulated into zero is the host's contraction (the same finite sum), a change of
  float format is the identity, the zero bias row the kernel adds to each convolution product is x + 0 = x, the bias the
  reference adds after the aggregation is the bias row the kernel's tanh region adds, and the edge lists, normalisation
  and pooling are the same host operations of the same integer arguments in both programs. No finiteness is needed: the
  two sides are the same function of the arguments, term for term.
  The three frames: the kernel program's two readings by the generated frame certificate of its seven regions, the
  reference's by its generated run. The idealization rewrote nothing, so it is preserved trivially.
-/
import proofs.«122370_j63024350101829_1_alg».proof.Defs
import proofs.«122370_j63024350101829_1_alg».proof.Proof.Gen.Kernel
import proofs.«122370_j63024350101829_1_alg».proof.Proof.Gen.Kernel.Skeleton
import proofs.«122370_j63024350101829_1_alg».proof.Proof.Gen.Kernel.Launch
import proofs.«122370_j63024350101829_1_alg».proof.Proof.Gen.Kernel.Points
import proofs.«122370_j63024350101829_1_alg».proof.Proof.Gen.Kernel.Frame
import proofs.«122370_j63024350101829_1_alg».proof.Proof.Gen.KernelIdeal
import proofs.«122370_j63024350101829_1_alg».proof.Proof.Gen.KernelIdeal.Skeleton
import proofs.«122370_j63024350101829_1_alg».proof.Proof.Gen.KernelIdeal.Launch
import proofs.«122370_j63024350101829_1_alg».proof.Proof.Gen.KernelIdeal.Points
import proofs.«122370_j63024350101829_1_alg».proof.Proof.Gen.KernelIdeal.Frame
import proofs.«122370_j63024350101829_1_alg».proof.Proof.Gen.ReferenceIdeal
import proofs.«122370_j63024350101829_1_alg».proof.Proof.Gen.Pre_finite_inputs
import proofs.«122370_j63024350101829_1_alg».proof.Proof.Gen.ReferenceIdeal.Run
import proofs.«122370_j63024350101829_1_alg».proof.Proof.Gen.ReferenceIdeal.Read
import proofs.«122370_j63024350101829_1_alg».proof.Proof.Boundaries
import Idealize.ShloMosaic.Adequacy
import Idealize.ShloMosaic.Init

set_option maxRecDepth 16384

noncomputable section

namespace Cert.Proof

open Idealize.ShloMosaic Idealize.SL.Sem

/-- The kernel program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the reference's closed function of the arguments: the kernel program
    by reading its last boundary back through its seven regions and the stretches between them, the reference by its
    run read one operation at a time. -/
theorem algebraic : Cert.algebraic_KernelIdeal_ReferenceIdeal := by
  intro m ρ m' ρ' _ hagree
  refine ⟨fun c => Cert.ReferenceIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.W14_out m ρ c), (h c).2⟩)
      (Cert.KernelIdeal.Whole.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v95_eq, Cert.ReferenceIdeal.Spec.v95_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
